-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v65)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v65) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v96) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x512 : Shape := ⟨2, ![100000, 512]⟩
abbrev S2x3200000 : Shape := ⟨2, ![2, 3200000]⟩
abbrev S512x16 : Shape := ⟨2, ![512, 16]⟩
abbrev S16 : Shape := ⟨1, ![16]⟩
abbrev S16x7 : Shape := ⟨2, ![16, 7]⟩
abbrev S7 : Shape := ⟨1, ![7]⟩
abbrev S_ : Shape := ⟨0, ![]⟩

class Facts : Prop where
  bcast_S_S100000x512 : S_.BroadcastsInDim S100000x512 (![] : Fin 0 → Fin S100000x512.rank)
  reducesTo_S100000x512_S_d0_1 : S100000x512.ReducesTo [0, 1] S_
  h_S_ : 0 < S_.numel
  bcast_S_S512x16 : S_.BroadcastsInDim S512x16 (![] : Fin 0 → Fin S512x16.rank)
  reducesTo_S512x16_S_d0_1 : S512x16.ReducesTo [0, 1] S_
  bcast_S_S16 : S_.BroadcastsInDim S16 (![] : Fin 0 → Fin S16.rank)
  reducesTo_S16_S_d0 : S16.ReducesTo [0] S_
  bcast_S_S16x7 : S_.BroadcastsInDim S16x7 (![] : Fin 0 → Fin S16x7.rank)
  reducesTo_S16x7_S_d0_1 : S16x7.ReducesTo [0, 1] S_
  bcast_S_S7 : S_.BroadcastsInDim S7 (![] : Fin 0 → Fin S7.rank)
  reducesTo_S7_S_d0 : S7.ReducesTo [0] S_

variable [Facts]

def fn_part1 {F : FTy → Type} [FloatOps F] (main_arg5 : FVec F S7 .f32) (main_v13 : IVec S_ 1) (main_v16 : IVec S16x7 1) : IVec S_ 1 :=
  let main_c_5 : IVec S_ 1 := constantI S_ 1 1#1
  let main_v17 : IVec S_ 1 := (fun x v => Host.reduce IntOp.andi x v reducesTo_S16x7_S_d0_1 h_S_) main_v16 main_c_5
  let main_v18 : IVec S_ 1 := andi main_v13 main_v17
  let main_v19 : FVec F S7 .f32 := Host.absf main_arg5
  let main_cst_6 : FVec F S_ .f32 := constant S_ .f32 0x7F800000#32
  let main_v20 : FVec F S7 .f32 := broadcastInDim S7 ![] bcast_S_S7 main_cst_6
  let main_v21 : IVec S7 1 := cmpf .olt main_v19 main_v20
  let main_c_7 : IVec S_ 1 := constantI S_ 1 1#1
  let main_v22 : IVec S_ 1 := (fun x v => Host.reduce IntOp.andi x v reducesTo_S7_S_d0 h_S_) main_v21 main_c_7
  let main_v23 : IVec S_ 1 := andi main_v18 main_v22
  main_v23

def fn {F : FTy → Type} [FloatOps F] (main_arg0 : FVec F S100000x512 .f32) (main_arg1 : IVec S2x3200000 32) (main_arg2 : FVec F S512x16 .f32) (main_arg3 : FVec F S16 .f32) (main_arg4 : FVec F S16x7 .f32) (main_arg5 : FVec F S7 .f32) : IVec S_ 1 :=
  let main_v0 : FVec F S100000x512 .f32 := Host.absf main_arg0
  let main_cst : FVec F S_ .f32 := constant S_ .f32 0x7F800000#32
  let main_v1 : FVec F S100000x512 .f32 := broadcastInDim S100000x512 ![] bcast_S_S100000x512 main_cst
  let main_v2 : IVec S100000x512 1 := cmpf .olt main_v0 main_v1
  let main_c : IVec S_ 1 := constantI S_ 1 1#1
  let main_v3 : IVec S_ 1 := (fun x v => Host.reduce IntOp.andi x v reducesTo_S100000x512_S_d0_1 h_S_) main_v2 main_c
  let main_v4 : FVec F S512x16 .f32 := Host.absf main_arg2
  let main_cst_0 : FVec F S_ .f32 := constant S_ .f32 0x7F800000#32
  let main_v5 : FVec F S512x16 .f32 := broadcastInDim S512x16 ![] bcast_S_S512x16 main_cst_0
  let main_v6 : IVec S512x16 1 := cmpf .olt main_v4 main_v5
  let main_c_1 : IVec S_ 1 := constantI S_ 1 1#1
  let main_v7 : IVec S_ 1 := (fun x v => Host.reduce IntOp.andi x v reducesTo_S512x16_S_d0_1 h_S_) main_v6 main_c_1
  let main_v8 : IVec S_ 1 := andi main_v3 main_v7
  let main_v9 : FVec F S16 .f32 := Host.absf main_arg3
  let main_cst_2 : FVec F S_ .f32 := constant S_ .f32 0x7F800000#32
  let main_v10 : FVec F S16 .f32 := broadcastInDim S16 ![] bcast_S_S16 main_cst_2
  let main_v11 : IVec S16 1 := cmpf .olt main_v9 main_v10
  let main_c_3 : IVec S_ 1 := constantI S_ 1 1#1
  let main_v12 : IVec S_ 1 := (fun x v => Host.reduce IntOp.andi x v reducesTo_S16_S_d0 h_S_) main_v11 main_c_3
  let main_v13 : IVec S_ 1 := andi main_v8 main_v12
  let main_v14 : FVec F S16x7 .f32 := Host.absf main_arg4
  let main_cst_4 : FVec F S_ .f32 := constant S_ .f32 0x7F800000#32
  let main_v15 : FVec F S16x7 .f32 := broadcastInDim S16x7 ![] bcast_S_S16x7 main_cst_4
  let main_v16 : IVec S16x7 1 := cmpf .olt main_v14 main_v15
  fn_part1 (F := F) main_arg5 main_v13 main_v16
-- ==== Kernel.lean ====
abbrev S100000x512 : Shape := ⟨2, ![100000, 512]⟩
abbrev S2x3200000 : Shape := ⟨2, ![2, 3200000]⟩
abbrev S512x16 : Shape := ⟨2, ![512, 16]⟩
abbrev S16 : Shape := ⟨1, ![16]⟩
abbrev S16x7 : Shape := ⟨2, ![16, 7]⟩
abbrev S7 : Shape := ⟨1, ![7]⟩
abbrev S100000 : Shape := ⟨1, ![100000]⟩
abbrev S1x3200000 : Shape := ⟨2, ![1, 3200000]⟩
abbrev S3200000 : Shape := ⟨1, ![3200000]⟩
abbrev S3300000 : Shape := ⟨1, ![3300000]⟩
abbrev S_ : Shape := ⟨0, ![]⟩
abbrev S3300000x1 : Shape := ⟨2, ![3300000, 1]⟩
abbrev S100000x16 : Shape := ⟨2, ![100000, 16]⟩
abbrev S5000x512 : Shape := ⟨2, ![5000, 512]⟩
abbrev S5000x16 : Shape := ⟨2, ![5000, 16]⟩
abbrev S3300000x16 : Shape := ⟨2, ![3300000, 16]⟩
abbrev S1x16 : Shape := ⟨2, ![1, 16]⟩
abbrev S100000x7 : Shape := ⟨2, ![100000, 7]⟩
abbrev S10000x16 : Shape := ⟨2, ![10000, 16]⟩
abbrev S10000x7 : Shape := ⟨2, ![10000, 7]⟩
abbrev S3300000x7 : Shape := ⟨2, ![3300000, 7]⟩
abbrev S1x7 : Shape := ⟨2, ![1, 7]⟩

abbrev nBuf : Space → Nat
  | .hbm => 88
  | .vmem => 10
  | .smem => 0
  | _ => 0

abbrev bufTy : (tb : Table) → Fin (tcTables nBuf tb) → BufTy
  | .hbm, ⟨0, _⟩ => ⟨S100000x512, .f32⟩
  | .hbm, ⟨1, _⟩ => ⟨S2x3200000, .i32⟩
  | .hbm, ⟨2, _⟩ => ⟨S512x16, .f32⟩
  | .hbm, ⟨3, _⟩ => ⟨S16, .f32⟩
  | .hbm, ⟨4, _⟩ => ⟨S16x7, .f32⟩
  | .hbm, ⟨5, _⟩ => ⟨S7, .f32⟩
  | .hbm, ⟨6, _⟩ => ⟨S100000, .i32⟩
  | .hbm, ⟨7, _⟩ => ⟨S1x3200000, .i32⟩
  | .hbm, ⟨8, _⟩ => ⟨S3200000, .i32⟩
  | .hbm, ⟨9, _⟩ => ⟨S3300000, .i32⟩
  | .hbm, ⟨10, _⟩ => ⟨S1x3200000, .i32⟩
  | .hbm, ⟨11, _⟩ => ⟨S3200000, .i32⟩
  | .hbm, ⟨12, _⟩ => ⟨S3300000, .i32⟩
  | .hbm, ⟨13, _⟩ => ⟨S_, .f32⟩
  | .hbm, ⟨14, _⟩ => ⟨S3300000, .f32⟩
  | .hbm, ⟨15, _⟩ => ⟨S_, .f32⟩
  | .hbm, ⟨16, _⟩ => ⟨S100000, .f32⟩
  | .hbm, ⟨17, _⟩ => ⟨S3300000x1, .i32⟩
  | .hbm, ⟨18, _⟩ => ⟨S100000, .f32⟩
  | .hbm, ⟨19, _⟩ => ⟨S_, .f32⟩
  | .hbm, ⟨20, _⟩ => ⟨S100000, .f32⟩
  | .hbm, ⟨21, _⟩ => ⟨S100000, .i1⟩
  | .hbm, ⟨22, _⟩ => ⟨S100000, .f32⟩
  | .hbm, ⟨23, _⟩ => ⟨S_, .f32⟩
  | .hbm, ⟨24, _⟩ => ⟨S100000, .f32⟩
  | .hbm, ⟨25, _⟩ => ⟨S100000, .f32⟩
  | .hbm, ⟨26, _⟩ => ⟨S_, .i32⟩
  | .hbm, ⟨27, _⟩ => ⟨S3300000, .i32⟩
  | .hbm, ⟨28, _⟩ => ⟨S3300000, .i1⟩
  | .hbm, ⟨29, _⟩ => ⟨S_, .i32⟩
  | .hbm, ⟨30, _⟩ => ⟨S3300000, .i32⟩
  | .hbm, ⟨31, _⟩ => ⟨S3300000, .i32⟩
  | .hbm, ⟨32, _⟩ => ⟨S3300000, .i32⟩
  | .hbm, ⟨33, _⟩ => ⟨S3300000x1, .i32⟩
  | .hbm, ⟨34, _⟩ => ⟨S3300000, .f32⟩
  | .hbm, ⟨35, _⟩ => ⟨S_, .i32⟩
  | .hbm, ⟨36, _⟩ => ⟨S3300000, .i32⟩
  | .hbm, ⟨37, _⟩ => ⟨S3300000, .i1⟩
  | .hbm, ⟨38, _⟩ => ⟨S_, .i32⟩
  | .hbm, ⟨39, _⟩ => ⟨S3300000, .i32⟩
  | .hbm, ⟨40, _⟩ => ⟨S3300000, .i32⟩
  | .hbm, ⟨41, _⟩ => ⟨S3300000, .i32⟩
  | .hbm, ⟨42, _⟩ => ⟨S3300000x1, .i32⟩
  | .hbm, ⟨43, _⟩ => ⟨S3300000, .f32⟩
  | .hbm, ⟨44, _⟩ => ⟨S3300000, .f32⟩
  | .hbm, ⟨45, _⟩ => ⟨S100000x16, .f32⟩
  | .hbm, ⟨46, _⟩ => ⟨S3300000x1, .f32⟩
  | .hbm, ⟨47, _⟩ => ⟨S_, .i32⟩
  | .hbm, ⟨48, _⟩ => ⟨S3300000, .i32⟩
  | .hbm, ⟨49, _⟩ => ⟨S3300000, .i1⟩
  | .hbm, ⟨50, _⟩ => ⟨S_, .i32⟩
  | .hbm, ⟨51, _⟩ => ⟨S3300000, .i32⟩
  | .hbm, ⟨52, _⟩ => ⟨S3300000, .i32⟩
  | .hbm, ⟨53, _⟩ => ⟨S3300000, .i32⟩
  | .hbm, ⟨54, _⟩ => ⟨S3300000x1, .i32⟩
  | .hbm, ⟨55, _⟩ => ⟨S3300000x16, .f32⟩
  | .hbm, ⟨56, _⟩ => ⟨S3300000x16, .f32⟩
  | .hbm, ⟨57, _⟩ => ⟨S3300000x16, .f32⟩
  | .hbm, ⟨58, _⟩ => ⟨S_, .f32⟩
  | .hbm, ⟨59, _⟩ => ⟨S100000x16, .f32⟩
  | .hbm, ⟨60, _⟩ => ⟨S3300000x1, .i32⟩
  | .hbm, ⟨61, _⟩ => ⟨S100000x16, .f32⟩
  | .hbm, ⟨62, _⟩ => ⟨S1x16, .f32⟩
  | .hbm, ⟨63, _⟩ => ⟨S100000x16, .f32⟩
  | .hbm, ⟨64, _⟩ => ⟨S100000x16, .f32⟩
  | .hbm, ⟨65, _⟩ => ⟨S_, .f32⟩
  | .hbm, ⟨66, _⟩ => ⟨S100000x16, .f32⟩
  | .hbm, ⟨67, _⟩ => ⟨S100000x16, .f32⟩
  | .hbm, ⟨68, _⟩ => ⟨S100000x7, .f32⟩
  | .hbm, ⟨69, _⟩ => ⟨S3300000x1, .f32⟩
  | .hbm, ⟨70, _⟩ => ⟨S_, .i32⟩
  | .hbm, ⟨71, _⟩ => ⟨S3300000, .i32⟩
  | .hbm, ⟨72, _⟩ => ⟨S3300000, .i1⟩
  | .hbm, ⟨73, _⟩ => ⟨S_, .i32⟩
  | .hbm, ⟨74, _⟩ => ⟨S3300000, .i32⟩
  | .hbm, ⟨75, _⟩ => ⟨S3300000, .i32⟩
  | .hbm, ⟨76, _⟩ => ⟨S3300000, .i32⟩
  | .hbm, ⟨77, _⟩ => ⟨S3300000x1, .i32⟩
  | .hbm, ⟨78, _⟩ => ⟨S3300000x7, .f32⟩
  | .hbm, ⟨79, _⟩ => ⟨S3300000x7, .f32⟩
  | .hbm, ⟨80, _⟩ => ⟨S3300000x7, .f32⟩
  | .hbm, ⟨81, _⟩ => ⟨S_, .f32⟩
  | .hbm, ⟨82, _⟩ => ⟨S100000x7, .f32⟩
  | .hbm, ⟨83, _⟩ => ⟨S3300000x1, .i32⟩
  | .hbm, ⟨84, _⟩ => ⟨S100000x7, .f32⟩
  | .hbm, ⟨85, _⟩ => ⟨S1x7, .f32⟩
  | .hbm, ⟨86, _⟩ => ⟨S100000x7, .f32⟩
  | .hbm, ⟨87, _⟩ => ⟨S100000x7, .f32⟩
  | .local _ .vmem, ⟨0, _⟩ => ⟨S5000x512, .f32⟩
  | .local _ .vmem, ⟨1, _⟩ => ⟨S5000x512, .f32⟩
  | .local _ .vmem, ⟨2, _⟩ => ⟨S512x16, .f32⟩
  | .local _ .vmem, ⟨3, _⟩ => ⟨S5000x16, .f32⟩
  | .local _ .vmem, ⟨4, _⟩ => ⟨S5000x16, .f32⟩
  | .local _ .vmem, ⟨5, _⟩ => ⟨S10000x16, .f32⟩
  | .local _ .vmem, ⟨6, _⟩ => ⟨S10000x16, .f32⟩
  | .local _ .vmem, ⟨7, _⟩ => ⟨S16x7, .f32⟩
  | .local _ .vmem, ⟨8, _⟩ => ⟨S10000x7, .f32⟩
  | .local _ .vmem, ⟨9, _⟩ => ⟨S10000x7, .f32⟩
  | _, _ => ⟨S100000x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_v14 : Ref sig .tc := ⟨.hbm, 24, rfl⟩
abbrev main_v15 : Ref sig .tc := ⟨.hbm, 25, rfl⟩
abbrev main_c : Ref sig .tc := ⟨.hbm, 26, rfl⟩
abbrev main_v16 : Ref sig .tc := ⟨.hbm, 27, rfl⟩
abbrev main_v17 : Ref sig .tc := ⟨.hbm, 28, rfl⟩
abbrev main_c_3 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_c_4 : Ref sig .tc := ⟨.hbm, 35, rfl⟩
abbrev main_v23 : Ref sig .tc := ⟨.hbm, 36, rfl⟩
abbrev main_v24 : Ref sig .tc := ⟨.hbm, 37, rfl⟩
abbrev main_c_5 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_c_6 : Ref sig .tc := ⟨.hbm, 47, rfl⟩
abbrev main_v33 : Ref sig .tc := ⟨.hbm, 48, rfl⟩
abbrev main_v34 : Ref sig .tc := ⟨.hbm, 49, rfl⟩
abbrev main_c_7 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_cst_8 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_call1_cst : Ref sig .tc := ⟨.hbm, 65, rfl⟩
abbrev main_call1_v0 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_c_9 : Ref sig .tc := ⟨.hbm, 70, rfl⟩
abbrev main_v51 : Ref sig .tc := ⟨.hbm, 71, rfl⟩
abbrev main_v52 : Ref sig .tc := ⟨.hbm, 72, rfl⟩
abbrev main_c_10 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev main_cst_11 : Ref sig .tc := ⟨.hbm, 81, rfl⟩
abbrev main_v60 : Ref sig .tc := ⟨.hbm, 82, rfl⟩
abbrev main_v61 : Ref sig .tc := ⟨.hbm, 83, rfl⟩
abbrev main_v62 : Ref sig .tc := ⟨.hbm, 84, rfl⟩
abbrev main_v63 : Ref sig .tc := ⟨.hbm, 85, rfl⟩
abbrev main_v64 : Ref sig .tc := ⟨.hbm, 86, rfl⟩
abbrev main_v65 : Ref sig .tc := ⟨.hbm, 87, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x16 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x16 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x16 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S16x7 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S10000x7 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

class Facts₀ : Prop where
  slices_S2x3200000_S1x3200000_0_0 : S2x3200000.Slices ![0, 0] S1x3200000
  shapeCasts_S1x3200000_S3200000 : S1x3200000.ShapeCasts S3200000
  concatenates_S3200000_S100000_S3300000_d0 : Shape.Concatenates [S3200000, S100000] S3300000 0
  slices_S2x3200000_S1x3200000_1_0 : S2x3200000.Slices ![1, 0] S1x3200000
  bcast_S_S3300000 : S_.BroadcastsInDim S3300000 (![] : Fin 0 → Fin S3300000.rank)
  bcast_S_S100000 : S_.BroadcastsInDim S100000 (![] : Fin 0 → Fin S100000.rank)
  bcast_S3300000_S3300000x1_0 : S3300000.BroadcastsInDim S3300000x1 (![0] : Fin 1 → Fin S3300000x1.rank)
  inb_S5000x512_S5000x512_0_0 : ∀ a, (![0, 0] : Fin 2 → Nat) a + S5000x512.size a ≤ S5000x512.size a
  h_S5000x512 : 0 < S5000x512.numel
  inb_S512x16_S512x16_0_0 : ∀ a, (![0, 0] : Fin 2 → Nat) a + S512x16.size a ≤ S512x16.size a
  h_S512x16 : 0 < S512x16.numel
  inb_S5000x16_S5000x16_0_0 : ∀ a, (![0, 0] : Fin 2 → Nat) a + S5000x16.size a ≤ S5000x16.size a
  h_S5000x16 : 0 < S5000x16.numel
  bcast_S3300000x1_S3300000x16_0_1 : S3300000x1.BroadcastsInDim S3300000x16 (![0, 1] : Fin 2 → Fin S3300000x16.rank)
  bcast_S_S100000x16 : S_.BroadcastsInDim S100000x16 (![] : Fin 0 → Fin S100000x16.rank)
  bcast_S16_S1x16_1 : S16.BroadcastsInDim S1x16 (![1] : Fin 1 → Fin S1x16.rank)
  bcast_S1x16_S100000x16_0_1 : S1x16.BroadcastsInDim S100000x16 (![0, 1] : Fin 2 → Fin S100000x16.rank)
  inb_S10000x16_S10000x16_0_0 : ∀ a, (![0, 0] : Fin 2 → Nat) a + S10000x16.size a ≤ S10000x16.size a
  h_S10000x16 : 0 < S10000x16.numel
  shapeCasts_S10000x16_S10000x16 : S10000x16.ShapeCasts S10000x16
  inb_S16x7_S16x7_0_0 : ∀ a, (![0, 0] : Fin 2 → Nat) a + S16x7.size a ≤ S16x7.size a
  h_S16x7 : 0 < S16x7.numel
  inb_S10000x7_S10000x7_0_0 : ∀ a, (![0, 0] : Fin 2 → Nat) a + S10000x7.size a ≤ S10000x7.size a
  h_S10000x7 : 0 < S10000x7.numel
  bcast_S3300000x1_S3300000x7_0_1 : S3300000x1.BroadcastsInDim S3300000x7 (![0, 1] : Fin 2 → Fin S3300000x7.rank)
  bcast_S_S100000x7 : S_.BroadcastsInDim S100000x7 (![] : Fin 0 → Fin S100000x7.rank)
  bcast_S7_S1x7_1 : S7.BroadcastsInDim S1x7 (![1] : Fin 1 → Fin S1x7.rank)
  bcast_S1x7_S100000x7_0_1 : S1x7.BroadcastsInDim S100000x7 (![0, 1] : Fin 2 → Fin S100000x7.rank)
  scatter_S100000_S3300000x1_S3300000_n_0_0_1_wf : ScatterDims.WF S100000 S3300000x1 S3300000 [] [0] [0] 1
  gather_S100000_S3300000x1_S3300000_n_0_n_n_0_1_1_wf : GatherDims.WF S100000 S3300000x1 S3300000 [] [0] [] [0] [] 1 ![1]
  dot_S5000x512_S512x16_S5000x16_1_0_0_1_n_n_wf : DotDims.WF S5000x512 S512x16 S5000x16 [1] [0] [0] [1] [] []
  gather_S100000x16_S3300000x1_S3300000x16_1_0_n_n_0_1_116_wf : GatherDims.WF S100000x16 S3300000x1 S3300000x16 [1] [0] [] [0] [] 1 ![1, 16]
  scatter_S100000x16_S3300000x1_S3300000x16_1_0_0_1_wf : ScatterDims.WF S100000x16 S3300000x1 S3300000x16 [1] [0] [0] 1
  dot_S10000x16_S16x7_S10000x7_1_0_0_1_n_n_wf : DotDims.WF S10000x16 S16x7 S10000x7 [1] [0] [0] [1] [] []
  gather_S100000x7_S3300000x1_S3300000x7_1_0_n_n_0_1_17_wf : GatherDims.WF S100000x7 S3300000x1 S3300000x7 [1] [0] [] [0] [] 1 ![1, 7]
  scatter_S100000x7_S3300000x1_S3300000x7_1_0_0_1_wf : ScatterDims.WF S100000x7 S3300000x1 S3300000x7 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x512.size a ≤ S100000x512.size a
  hwx0_0 : ∀ i : grid0.Coords, EltTy.bits .f32 = 32 ∨ (Rect.block (s := S100000x512) S5000x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x16.size a ≤ S512x16.size a
  hwx0_1 : ∀ i : grid0.Coords, EltTy.bits .f32 = 32 ∨ (Rect.block (s := S512x16) S512x16.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x16.size a ≤ S100000x16.size a
  hwx0_2 : ∀ i : grid0.Coords, EltTy.bits .f32 = 32 ∨ (Rect.block (s := S100000x16) S5000x16.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x16.size a ≤ S100000x16.size a
  hwx1_0 : ∀ i : grid1.Coords, EltTy.bits .f32 = 32 ∨ (Rect.block (s := S100000x16) S10000x16.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S16x7.size a ≤ S16x7.size a
  hwx1_1 : ∀ i : grid1.Coords, EltTy.bits .f32 = 32 ∨ (Rect.block (s := S16x7) S16x7.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S10000x7.size a ≤ S100000x7.size a
  hwx1_2 : ∀ i : grid1.Coords, EltTy.bits .f32 = 32 ∨ (Rect.block (s := S100000x7) S10000x7.size (cc1_transform_2 i) (hinb1_2 i)).WholeWords (EltTy.packing .f32)

variable [Facts₀]

def scatter_S100000_S3300000x1_S3300000_n_0_0_1 : ScatterDims S100000 S3300000x1 S3300000 where
  updateWindowDims := []
  insertedWindowDims := [0]
  scatterDimsToOperandDims := [0]
  indexVectorDim := 1
  wf := scatter_S100000_S3300000x1_S3300000_n_0_0_1_wf
def gather_S100000_S3300000x1_S3300000_n_0_n_n_0_1_1 : GatherDims S100000 S3300000x1 S3300000 where
  offsetDims := []
  collapsedSliceDims := [0]
  operandBatchingDims := []
  startIndicesBatchingDims := []
  startIndexMap := [0]
  indexVectorDim := 1
  sliceSizes := ![1]
  wf := gather_S100000_S3300000x1_S3300000_n_0_n_n_0_1_1_wf
def dot_S5000x512_S512x16_S5000x16_1_0_0_1_n_n : DotDims S5000x512 S512x16 S5000x16 where
  lhsContracting := [1]
  rhsContracting := [0]
  lhsNonContracting := [0]
  rhsNonContracting := [1]
  lhsBatch := []
  rhsBatch := []
  wf := dot_S5000x512_S512x16_S5000x16_1_0_0_1_n_n_wf
def gather_S100000x16_S3300000x1_S3300000x16_1_0_n_n_0_1_116 : GatherDims S100000x16 S3300000x1 S3300000x16 where
  offsetDims := [1]
  collapsedSliceDims := [0]
  operandBatchingDims := []
  startIndicesBatchingDims := []
  startIndexMap := [0]
  indexVectorDim := 1
  sliceSizes := ![1, 16]
  wf := gather_S100000x16_S3300000x1_S3300000x16_1_0_n_n_0_1_116_wf
def scatter_S100000x16_S3300000x1_S3300000x16_1_0_0_1 : ScatterDims S100000x16 S3300000x1 S3300000x16 where
  updateWindowDims := [1]
  insertedWindowDims := [0]
  scatterDimsToOperandDims := [0]
  indexVectorDim := 1
  wf := scatter_S100000x16_S3300000x1_S3300000x16_1_0_0_1_wf
def dot_S10000x16_S16x7_S10000x7_1_0_0_1_n_n : DotDims S10000x16 S16x7 S10000x7 where
  lhsContracting := [1]
  rhsContracting := [0]
  lhsNonContracting := [0]
  rhsNonContracting := [1]
  lhsBatch := []
  rhsBatch := []
  wf := dot_S10000x16_S16x7_S10000x7_1_0_0_1_n_n_wf
def gather_S100000x7_S3300000x1_S3300000x7_1_0_n_n_0_1_17 : GatherDims S100000x7 S3300000x1 S3300000x7 where
  offsetDims := [1]
  collapsedSliceDims := [0]
  operandBatchingDims := []
  startIndicesBatchingDims := []
  startIndexMap := [0]
  indexVectorDim := 1
  sliceSizes := ![1, 7]
  wf := gather_S100000x7_S3300000x1_S3300000x7_1_0_n_n_0_1_17_wf
def scatter_S100000x7_S3300000x1_S3300000x7_1_0_0_1 : ScatterDims S100000x7 S3300000x1 S3300000x7 where
  updateWindowDims := [1]
  insertedWindowDims := [0]
  scatterDimsToOperandDims := [0]
  indexVectorDim := 1
  wf := scatter_S100000x7_S3300000x1_S3300000x7_1_0_0_1_wf

abbrev win0_0 : Pipeline.Window sig grid0 :=
  Pipeline.Window.ofSpec (Memref.whole main_arg0) S5000x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S512x16.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v31) S5000x16.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v48) S10000x16.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg4) S16x7.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v49) S10000x7.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

class Facts : Prop extends Facts₀ where

variable [Facts]
-- ==== ReferenceIdeal.lean ====
abbrev S100000x512 : Shape := ⟨2, ![100000, 512]⟩
abbrev S2x3200000 : Shape := ⟨2, ![2, 3200000]⟩
abbrev S512x16 : Shape := ⟨2, ![512, 16]⟩
abbrev S16 : Shape := ⟨1, ![16]⟩
abbrev S16x7 : Shape := ⟨2, ![16, 7]⟩
abbrev S7 : Shape := ⟨1, ![7]⟩
abbrev S100000 : Shape := ⟨1, ![100000]⟩
abbrev S1x3200000 : Shape := ⟨2, ![1, 3200000]⟩
abbrev S3200000 : Shape := ⟨1, ![3200000]⟩
abbrev S3300000 : Shape := ⟨1, ![3300000]⟩
abbrev S_ : Shape := ⟨0, ![]⟩
abbrev S3300000x1 : Shape := ⟨2, ![3300000, 1]⟩
abbrev S100000x16 : Shape := ⟨2, ![100000, 16]⟩
abbrev S3300000x16 : Shape := ⟨2, ![3300000, 16]⟩
abbrev S1x16 : Shape := ⟨2, ![1, 16]⟩
abbrev S100000x7 : Shape := ⟨2, ![100000, 7]⟩
abbrev S3300000x7 : Shape := ⟨2, ![3300000, 7]⟩
abbrev S1x7 : Shape := ⟨2, ![1, 7]⟩

abbrev nBuf : Space → Nat
  | .hbm => 127
  | .vmem => 0
  | .smem => 0
  | _ => 0

abbrev bufTy : (tb : Table) → Fin (tcTables nBuf tb) → BufTy
  | .hbm, ⟨0, _⟩ => ⟨S100000x512, .f32⟩
  | .hbm, ⟨1, _⟩ => ⟨S2x3200000, .i32⟩
  | .hbm, ⟨2, _⟩ => ⟨S512x16, .f32⟩
  | .hbm, ⟨3, _⟩ => ⟨S16, .f32⟩
  | .hbm, ⟨4, _⟩ => ⟨S16x7, .f32⟩
  | .hbm, ⟨5, _⟩ => ⟨S7, .f32⟩
  | .hbm, ⟨6, _⟩ => ⟨S100000, .i32⟩
  | .hbm, ⟨7, _⟩ => ⟨S1x3200000, .i32⟩
  | .hbm, ⟨8, _⟩ => ⟨S3200000, .i32⟩
  | .hbm, ⟨9, _⟩ => ⟨S3300000, .i32⟩
  | .hbm, ⟨10, _⟩ => ⟨S1x3200000, .i32⟩
  | .hbm, ⟨11, _⟩ => ⟨S3200000, .i32⟩
  | .hbm, ⟨12, _⟩ => ⟨S3300000, .i32⟩
  | .hbm, ⟨13, _⟩ => ⟨S_, .f32⟩
  | .hbm, ⟨14, _⟩ => ⟨S3300000, .f32⟩
  | .hbm, ⟨15, _⟩ => ⟨S_, .f32⟩
  | .hbm, ⟨16, _⟩ => ⟨S100000, .f32⟩
  | .hbm, ⟨17, _⟩ => ⟨S3300000x1, .i32⟩
  | .hbm, ⟨18, _⟩ => ⟨S100000, .f32⟩
  | .hbm, ⟨19, _⟩ => ⟨S_, .f32⟩
  | .hbm, ⟨20, _⟩ => ⟨S100000, .f32⟩
  | .hbm, ⟨21, _⟩ => ⟨S100000, .i1⟩
  | .hbm, ⟨22, _⟩ => ⟨S100000, .f32⟩
  | .hbm, ⟨23, _⟩ => ⟨S_, .f32⟩
  | .hbm, ⟨24, _⟩ => ⟨S100000, .f32⟩
  | .hbm, ⟨25, _⟩ => ⟨S100000, .f32⟩
  | .hbm, ⟨26, _⟩ => ⟨S_, .i32⟩
  | .hbm, ⟨27, _⟩ => ⟨S3300000, .i32⟩
  | .hbm, ⟨28, _⟩ => ⟨S3300000, .i1⟩
  | .hbm, ⟨29, _⟩ => ⟨S_, .i32⟩
  | .hbm, ⟨30, _⟩ => ⟨S3300000, .i32⟩
  | .hbm, ⟨31, _⟩ => ⟨S3300000, .i32⟩
  | .hbm, ⟨32, _⟩ => ⟨S3300000, .i32⟩
  | .hbm, ⟨33, _⟩ => ⟨S3300000x1, .i32⟩
  | .hbm, ⟨34, _⟩ => ⟨S3300000, .f32⟩
  | .hbm, ⟨35, _⟩ => ⟨S_, .i32⟩
  | .hbm, ⟨36, _⟩ => ⟨S3300000, .i32⟩
  | .hbm, ⟨37, _⟩ => ⟨S3300000, .i1⟩
  | .hbm, ⟨38, _⟩ => ⟨S_, .i32⟩
  | .hbm, ⟨39, _⟩ => ⟨S3300000, .i32⟩
  | .hbm, ⟨40, _⟩ => ⟨S3300000, .i32⟩
  | .hbm, ⟨41, _⟩ => ⟨S3300000, .i32⟩
  | .hbm, ⟨42, _⟩ => ⟨S3300000x1, .i32⟩
  | .hbm, ⟨43, _⟩ => ⟨S3300000, .f32⟩
  | .hbm, ⟨44, _⟩ => ⟨S3300000, .f32⟩
  | .hbm, ⟨45, _⟩ => ⟨S100000x16, .f32⟩
  | .hbm, ⟨46, _⟩ => ⟨S3300000x1, .f32⟩
  | .hbm, ⟨47, _⟩ => ⟨S_, .i32⟩
  | .hbm, ⟨48, _⟩ => ⟨S3300000, .i32⟩
  | .hbm, ⟨49, _⟩ => ⟨S3300000, .i1⟩
  | .hbm, ⟨50, _⟩ => ⟨S_, .i32⟩
  | .hbm, ⟨51, _⟩ => ⟨S3300000, .i32⟩
  | .hbm, ⟨52, _⟩ => ⟨S3300000, .i32⟩
  | .hbm, ⟨53, _⟩ => ⟨S3300000, .i32⟩
  | .hbm, ⟨54, _⟩ => ⟨S3300000x1, .i32⟩
  | .hbm, ⟨55, _⟩ => ⟨S3300000x16, .f32⟩
  | .hbm, ⟨56, _⟩ => ⟨S3300000x16, .f32⟩
  | .hbm, ⟨57, _⟩ => ⟨S3300000x16, .f32⟩
  | .hbm, ⟨58, _⟩ => ⟨S_, .f32⟩
  | .hbm, ⟨59, _⟩ => ⟨S100000x16, .f32⟩
  | .hbm, ⟨60, _⟩ => ⟨S3300000x1, .i32⟩
  | .hbm, ⟨61, _⟩ => ⟨S100000x16, .f32⟩
  | .hbm, ⟨62, _⟩ => ⟨S1x16, .f32⟩
  | .hbm, ⟨63, _⟩ => ⟨S100000x16, .f32⟩
  | .hbm, ⟨64, _⟩ => ⟨S100000x16, .f32⟩
  | .hbm, ⟨65, _⟩ => ⟨S_, .f32⟩
  | .hbm, ⟨66, _⟩ => ⟨S100000x16, .f32⟩
  | .hbm, ⟨67, _⟩ => ⟨S100000x16, .f32⟩
  | .hbm, ⟨68, _⟩ => ⟨S100000, .i32⟩
  | .hbm, ⟨69, _⟩ => ⟨S1x3200000, .i32⟩
  | .hbm, ⟨70, _⟩ => ⟨S3200000, .i32⟩
  | .hbm, ⟨71, _⟩ => ⟨S3300000, .i32⟩
  | .hbm, ⟨72, _⟩ => ⟨S1x3200000, .i32⟩
  | .hbm, ⟨73, _⟩ => ⟨S3200000, .i32⟩
  | .hbm, ⟨74, _⟩ => ⟨S3300000, .i32⟩
  | .hbm, ⟨75, _⟩ => ⟨S_, .f32⟩
  | .hbm, ⟨76, _⟩ => ⟨S3300000, .f32⟩
  | .hbm, ⟨77, _⟩ => ⟨S_, .f32⟩
  | .hbm, ⟨78, _⟩ => ⟨S100000, .f32⟩
  | .hbm, ⟨79, _⟩ => ⟨S3300000x1, .i32⟩
  | .hbm, ⟨80, _⟩ => ⟨S100000, .f32⟩
  | .hbm, ⟨81, _⟩ => ⟨S_, .f32⟩
  | .hbm, ⟨82, _⟩ => ⟨S100000, .f32⟩
  | .hbm, ⟨83, _⟩ => ⟨S100000, .i1⟩
  | .hbm, ⟨84, _⟩ => ⟨S100000, .f32⟩
  | .hbm, ⟨85, _⟩ => ⟨S_, .f32⟩
  | .hbm, ⟨86, _⟩ => ⟨S100000, .f32⟩
  | .hbm, ⟨87, _⟩ => ⟨S100000, .f32⟩
  | .hbm, ⟨88, _⟩ => ⟨S_, .i32⟩
  | .hbm, ⟨89, _⟩ => ⟨S3300000, .i32⟩
  | .hbm, ⟨90, _⟩ => ⟨S3300000, .i1⟩
  | .hbm, ⟨91, _⟩ => ⟨S_, .i32⟩
  | .hbm, ⟨92, _⟩ => ⟨S3300000, .i32⟩
  | .hbm, ⟨93, _⟩ => ⟨S3300000, .i32⟩
  | .hbm, ⟨94, _⟩ => ⟨S3300000, .i32⟩
  | .hbm, ⟨95, _⟩ => ⟨S3300000x1, .i32⟩
  | .hbm, ⟨96, _⟩ => ⟨S3300000, .f32⟩
  | .hbm, ⟨97, _⟩ => ⟨S_, .i32⟩
  | .hbm, ⟨98, _⟩ => ⟨S3300000, .i32⟩
  | .hbm, ⟨99, _⟩ => ⟨S3300000, .i1⟩
  | .hbm, ⟨100, _⟩ => ⟨S_, .i32⟩
  | .hbm, ⟨101, _⟩ => ⟨S3300000, .i32⟩
  | .hbm, ⟨102, _⟩ => ⟨S3300000, .i32⟩
  | .hbm, ⟨103, _⟩ => ⟨S3300000, .i32⟩
  | .hbm, ⟨104, _⟩ => ⟨S3300000x1, .i32⟩
  | .hbm, ⟨105, _⟩ => ⟨S3300000, .f32⟩
  | .hbm, ⟨106, _⟩ => ⟨S3300000, .f32⟩
  | .hbm, ⟨107, _⟩ => ⟨S100000x7, .f32⟩
  | .hbm, ⟨108, _⟩ => ⟨S3300000x1, .f32⟩
  | .hbm, ⟨109, _⟩ => ⟨S_, .i32⟩
  | .hbm, ⟨110, _⟩ => ⟨S3300000, .i32⟩
  | .hbm, ⟨111, _⟩ => ⟨S3300000, .i1⟩
  | .hbm, ⟨112, _⟩ => ⟨S_, .i32⟩
  | .hbm, ⟨113, _⟩ => ⟨S3300000, .i32⟩
  | .hbm, ⟨114, _⟩ => ⟨S3300000, .i32⟩
  | .hbm, ⟨115, _⟩ => ⟨S3300000, .i32⟩
  | .hbm, ⟨116, _⟩ => ⟨S3300000x1, .i32⟩
  | .hbm, ⟨117, _⟩ => ⟨S3300000x7, .f32⟩
  | .hbm, ⟨118, _⟩ => ⟨S3300000x7, .f32⟩
  | .hbm, ⟨119, _⟩ => ⟨S3300000x7, .f32⟩
  | .hbm, ⟨120, _⟩ => ⟨S_, .f32⟩
  | .hbm, ⟨121, _⟩ => ⟨S100000x7, .f32⟩
  | .hbm, ⟨122, _⟩ => ⟨S3300000x1, .i32⟩
  | .hbm, ⟨123, _⟩ => ⟨S100000x7, .f32⟩
  | .hbm, ⟨124, _⟩ => ⟨S1x7, .f32⟩
  | .hbm, ⟨125, _⟩ => ⟨S100000x7, .f32⟩
  | .hbm, ⟨126, _⟩ => ⟨S100000x7, .f32⟩
  | _, _ => ⟨S100000x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_v14 : Ref sig .tc := ⟨.hbm, 24, rfl⟩
abbrev main_v15 : Ref sig .tc := ⟨.hbm, 25, rfl⟩
abbrev main_c : Ref sig .tc := ⟨.hbm, 26, rfl⟩
abbrev main_v16 : Ref sig .tc := ⟨.hbm, 27, rfl⟩
abbrev main_v17 : Ref sig .tc := ⟨.hbm, 28, rfl⟩
abbrev main_c_3 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_c_4 : Ref sig .tc := ⟨.hbm, 35, rfl⟩
abbrev main_v23 : Ref sig .tc := ⟨.hbm, 36, rfl⟩
abbrev main_v24 : Ref sig .tc := ⟨.hbm, 37, rfl⟩
abbrev main_c_5 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_c_6 : Ref sig .tc := ⟨.hbm, 47, rfl⟩
abbrev main_v33 : Ref sig .tc := ⟨.hbm, 48, rfl⟩
abbrev main_v34 : Ref sig .tc := ⟨.hbm, 49, rfl⟩
abbrev main_c_7 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_cst_8 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_call1_cst : Ref sig .tc := ⟨.hbm, 65, rfl⟩
abbrev main_call1_v0 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_cst_9 : Ref sig .tc := ⟨.hbm, 75, rfl⟩
abbrev main_v56 : Ref sig .tc := ⟨.hbm, 76, rfl⟩
abbrev main_cst_10 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev main_cst_11 : Ref sig .tc := ⟨.hbm, 81, rfl⟩
abbrev main_v60 : Ref sig .tc := ⟨.hbm, 82, rfl⟩
abbrev main_v61 : Ref sig .tc := ⟨.hbm, 83, rfl⟩
abbrev main_v62 : Ref sig .tc := ⟨.hbm, 84, rfl⟩
abbrev main_cst_12 : Ref sig .tc := ⟨.hbm, 85, rfl⟩
abbrev main_v63 : Ref sig .tc := ⟨.hbm, 86, rfl⟩
abbrev main_v64 : Ref sig .tc := ⟨.hbm, 87, rfl⟩
abbrev main_c_13 : Ref sig .tc := ⟨.hbm, 88, rfl⟩
abbrev main_v65 : Ref sig .tc := ⟨.hbm, 89, rfl⟩
abbrev main_v66 : Ref sig .tc := ⟨.hbm, 90, rfl⟩
abbrev main_c_14 : Ref sig .tc := ⟨.hbm, 91, rfl⟩
abbrev main_v67 : Ref sig .tc := ⟨.hbm, 92, rfl⟩
abbrev main_v68 : Ref sig .tc := ⟨.hbm, 93, rfl⟩
abbrev main_v69 : Ref sig .tc := ⟨.hbm, 94, rfl⟩
abbrev main_v70 : Ref sig .tc := ⟨.hbm, 95, rfl⟩
abbrev main_v71 : Ref sig .tc := ⟨.hbm, 96, rfl⟩
abbrev main_c_15 : Ref sig .tc := ⟨.hbm, 97, rfl⟩
abbrev main_v72 : Ref sig .tc := ⟨.hbm, 98, rfl⟩
abbrev main_v73 : Ref sig .tc := ⟨.hbm, 99, rfl⟩
abbrev main_c_16 : Ref sig .tc := ⟨.hbm, 100, rfl⟩
abbrev main_v74 : Ref sig .tc := ⟨.hbm, 101, rfl⟩
abbrev main_v75 : Ref sig .tc := ⟨.hbm, 102, rfl⟩
abbrev main_v76 : Ref sig .tc := ⟨.hbm, 103, rfl⟩
abbrev main_v77 : Ref sig .tc := ⟨.hbm, 104, rfl⟩
abbrev main_v78 : Ref sig .tc := ⟨.hbm, 105, rfl⟩
abbrev main_v79 : Ref sig .tc := ⟨.hbm, 106, rfl⟩
abbrev main_v80 : Ref sig .tc := ⟨.hbm, 107, rfl⟩
abbrev main_v81 : Ref sig .tc := ⟨.hbm, 108, rfl⟩
abbrev main_c_17 : Ref sig .tc := ⟨.hbm, 109, rfl⟩
abbrev main_v82 : Ref sig .tc := ⟨.hbm, 110, rfl⟩
abbrev main_v83 : Ref sig .tc := ⟨.hbm, 111, rfl⟩
abbrev main_c_18 : Ref sig .tc := ⟨.hbm, 112, rfl⟩
abbrev main_v84 : Ref sig .tc := ⟨.hbm, 113, rfl⟩
abbrev main_v85 : Ref sig .tc := ⟨.hbm, 114, rfl⟩
abbrev main_v86 : Ref sig .tc := ⟨.hbm, 115, rfl⟩
abbrev main_v87 : Ref sig .tc := ⟨.hbm, 116, rfl⟩
abbrev main_v88 : Ref sig .tc := ⟨.hbm, 117, rfl⟩
abbrev main_v89 : Ref sig .tc := ⟨.hbm, 118, rfl⟩
abbrev main_v90 : Ref sig .tc := ⟨.hbm, 119, rfl⟩
abbrev main_cst_19 : Ref sig .tc := ⟨.hbm, 120, rfl⟩
abbrev main_v91 : Ref sig .tc := ⟨.hbm, 121, rfl⟩
abbrev main_v92 : Ref sig .tc := ⟨.hbm, 122, rfl⟩
abbrev main_v93 : Ref sig .tc := ⟨.hbm, 123, rfl⟩
abbrev main_v94 : Ref sig .tc := ⟨.hbm, 124, rfl⟩
abbrev main_v95 : Ref sig .tc := ⟨.hbm, 125, rfl⟩
abbrev main_v96 : Ref sig .tc := ⟨.hbm, 126, rfl⟩

abbrev nD : Nat := 1
abbrev τ : Topo := Topo.v7x

variable {F : FTy → Type} [FloatOps F]

class Facts₀ : Prop where
  slices_S2x3200000_S1x3200000_0_0 : S2x3200000.Slices ![0, 0] S1x3200000
  shapeCasts_S1x3200000_S3200000 : S1x3200000.ShapeCasts S3200000
  concatenates_S3200000_S100000_S3300000_d0 : Shape.Concatenates [S3200000, S100000] S3300000 0
  slices_S2x3200000_S1x3200000_1_0 : S2x3200000.Slices ![1, 0] S1x3200000
  bcast_S_S3300000 : S_.BroadcastsInDim S3300000 (![] : Fin 0 → Fin S3300000.rank)
  bcast_S_S100000 : S_.BroadcastsInDim S100000 (![] : Fin 0 → Fin S100000.rank)
  bcast_S3300000_S3300000x1_0 : S3300000.BroadcastsInDim S3300000x1 (![0] : Fin 1 → Fin S3300000x1.rank)
  bcast_S3300000x1_S3300000x16_0_1 : S3300000x1.BroadcastsInDim S3300000x16 (![0, 1] : Fin 2 → Fin S3300000x16.rank)
  bcast_S_S100000x16 : S_.BroadcastsInDim S100000x16 (![] : Fin 0 → Fin S100000x16.rank)
  bcast_S16_S1x16_1 : S16.BroadcastsInDim S1x16 (![1] : Fin 1 → Fin S1x16.rank)
  bcast_S1x16_S100000x16_0_1 : S1x16.BroadcastsInDim S100000x16 (![0, 1] : Fin 2 → Fin S100000x16.rank)
  bcast_S3300000x1_S3300000x7_0_1 : S3300000x1.BroadcastsInDim S3300000x7 (![0, 1] : Fin 2 → Fin S3300000x7.rank)
  bcast_S_S100000x7 : S_.BroadcastsInDim S100000x7 (![] : Fin 0 → Fin S100000x7.rank)
  bcast_S7_S1x7_1 : S7.BroadcastsInDim S1x7 (![1] : Fin 1 → Fin S1x7.rank)
  bcast_S1x7_S100000x7_0_1 : S1x7.BroadcastsInDim S100000x7 (![0, 1] : Fin 2 → Fin S100000x7.rank)
  scatter_S100000_S3300000x1_S3300000_n_0_0_1_wf : ScatterDims.WF S100000 S3300000x1 S3300000 [] [0] [0] 1
  gather_S100000_S3300000x1_S3300000_n_0_n_n_0_1_1_wf : GatherDims.WF S100000 S3300000x1 S3300000 [] [0] [] [0] [] 1 ![1]
  dot_S100000x512_S512x16_S100000x16_1_0_0_1_n_n_wf : DotDims.WF S100000x512 S512x16 S100000x16 [1] [0] [0] [1] [] []
  gather_S100000x16_S3300000x1_S3300000x16_1_0_n_n_0_1_116_wf : GatherDims.WF S100000x16 S3300000x1 S3300000x16 [1] [0] [] [0] [] 1 ![1, 16]
  scatter_S100000x16_S3300000x1_S3300000x16_1_0_0_1_wf : ScatterDims.WF S100000x16 S3300000x1 S3300000x16 [1] [0] [0] 1
  dot_S100000x16_S16x7_S100000x7_1_0_0_1_n_n_wf : DotDims.WF S100000x16 S16x7 S100000x7 [1] [0] [0] [1] [] []
  gather_S100000x7_S3300000x1_S3300000x7_1_0_n_n_0_1_17_wf : GatherDims.WF S100000x7 S3300000x1 S3300000x7 [1] [0] [] [0] [] 1 ![1, 7]
  scatter_S100000x7_S3300000x1_S3300000x7_1_0_0_1_wf : ScatterDims.WF S100000x7 S3300000x1 S3300000x7 [1] [0] [0] 1

variable [Facts₀]

def scatter_S100000_S3300000x1_S3300000_n_0_0_1 : ScatterDims S100000 S3300000x1 S3300000 where
  updateWindowDims := []
  insertedWindowDims := [0]
  scatterDimsToOperandDims := [0]
  indexVectorDim := 1
  wf := scatter_S100000_S3300000x1_S3300000_n_0_0_1_wf
def gather_S100000_S3300000x1_S3300000_n_0_n_n_0_1_1 : GatherDims S100000 S3300000x1 S3300000 where
  offsetDims := []
  collapsedSliceDims := [0]
  operandBatchingDims := []
  startIndicesBatchingDims := []
  startIndexMap := [0]
  indexVectorDim := 1
  sliceSizes := ![1]
  wf := gather_S100000_S3300000x1_S3300000_n_0_n_n_0_1_1_wf
def dot_S100000x512_S512x16_S100000x16_1_0_0_1_n_n : DotDims S100000x512 S512x16 S100000x16 where
  lhsContracting := [1]
  rhsContracting := [0]
  lhsNonContracting := [0]
  rhsNonContracting := [1]
  lhsBatch := []
  rhsBatch := []
  wf := dot_S100000x512_S512x16_S100000x16_1_0_0_1_n_n_wf
def gather_S100000x16_S3300000x1_S3300000x16_1_0_n_n_0_1_116 : GatherDims S100000x16 S3300000x1 S3300000x16 where
  offsetDims := [1]
  collapsedSliceDims := [0]
  operandBatchingDims := []
  startIndicesBatchingDims := []
  startIndexMap := [0]
  indexVectorDim := 1
  sliceSizes := ![1, 16]
  wf := gather_S100000x16_S3300000x1_S3300000x16_1_0_n_n_0_1_116_wf
def scatter_S100000x16_S3300000x1_S3300000x16_1_0_0_1 : ScatterDims S100000x16 S3300000x1 S3300000x16 where
  updateWindowDims := [1]
  insertedWindowDims := [0]
  scatterDimsToOperandDims := [0]
  indexVectorDim := 1
  wf := scatter_S100000x16_S3300000x1_S3300000x16_1_0_0_1_wf
def dot_S100000x16_S16x7_S100000x7_1_0_0_1_n_n : DotDims S100000x16 S16x7 S100000x7 where
  lhsContracting := [1]
  rhsContracting := [0]
  lhsNonContracting := [0]
  rhsNonContracting := [1]
  lhsBatch := []
  rhsBatch := []
  wf := dot_S100000x16_S16x7_S100000x7_1_0_0_1_n_n_wf
def gather_S100000x7_S3300000x1_S3300000x7_1_0_n_n_0_1_17 : GatherDims S100000x7 S3300000x1 S3300000x7 where
  offsetDims := [1]
  collapsedSliceDims := [0]
  operandBatchingDims := []
  startIndicesBatchingDims := []
  startIndexMap := [0]
  indexVectorDim := 1
  sliceSizes := ![1, 7]
  wf := gather_S100000x7_S3300000x1_S3300000x7_1_0_n_n_0_1_17_wf
def scatter_S100000x7_S3300000x1_S3300000x7_1_0_0_1 : ScatterDims S100000x7 S3300000x1 S3300000x7 where
  updateWindowDims := [1]
  insertedWindowDims := [0]
  scatterDimsToOperandDims := [0]
  indexVectorDim := 1
  wf := scatter_S100000x7_S3300000x1_S3300000x7_1_0_0_1_wf

class Facts : Prop extends Facts₀ where

variable [Facts]
-- ==== Proof.LibTypedRefs.lean ====
/-
  Reading a straight line of host operations back, one stretch at a time.

  * The contents after two lists of operations run one after the other are the second list's fold from the first
    list's (`after_append`): a long line is read a stretch at a time, the few buffers a later stretch reads named
    before it reads them, instead of one term in which every shared intermediate is written out once per use.
  * An operation inside a called function reads and writes its buffers through a typed reference: the value is
    transported along the equation "the buffer's type is the value's type". At a literal reference whose declared type
    is the buffer's own the transport is the identity, in both directions (`ofBuf_self`, `toBuf_self`). Rewrite with
    these (by `rw`: they are stated at `T := r.ty`, which a syntactic matcher does not see through) BEFORE comparing the
    read-back term with a closed form: with a transport left around a selection or a comparison, deciding the
    selection's condition forces the operands — a scatter over every edge, say — at a symbolic index.
-/
import Idealize.ShloMosaic.Lib.StableHlo.Run

noncomputable section

namespace Idealize.ShloMosaic.StableHlo

variable {nD : Nat} {τ : Topo} {sig : RefSig} {Val : EltTy → Type}

/-- The contents after two lists run one after the other: the second list's fold from the first list's. -/
theorem after_append (l₁ l₂ : List (HloOp τ sig Val)) (V : Valuation τ sig Val) :
    after (l₁ ++ l₂) V = after l₂ (after l₁ V) := by
  induction l₁ generalizing V with
  | nil => rfl
  | cons op l ih => exact ih (op.result V)

/-- Contents read through a literal reference at the buffer's own type are the contents. -/
theorem TRef.ofBuf_self (r : Ref sig .tc) (h : r.ty = r.ty) (hd : r.space ≠ .host) (hu : r.isScoped = false)
    (v : r.ty.Contents Val) : (TRef.of (T := r.ty) r h hd hu).ofBuf v = v := rfl

/-- Contents written through a literal reference at the buffer's own type are the contents. -/
theorem TRef.toBuf_self (r : Ref sig .tc) (h : r.ty = r.ty) (hd : r.space ≠ .host) (hu : r.isScoped = false)
    (v : r.ty.Contents Val) : (TRef.of (T := r.ty) r h hd hu).toBuf v = v := rfl

end Idealize.ShloMosaic.StableHlo

end
-- ==== Proof.Entry.lean ====
/-
  The buffers when the first pallas_call is entered.

  Before the first pallas_call @main runs three stretches of host operations on the edge list alone: the source and the
  target of every edge with one self-loop per node appended (`main_v3`, `main_v6`); the number of edges arriving at each
  node, as a sum of ones scattered to the targets; its inverse square root where that number is positive and zero
  elsewhere (a selection made inside a called function, the second stretch); and for every edge the product of that
  quantity at its source and at its target (`main_v30`). The reference program begins with the same operations in the same
  order, so each of these buffers holds, at the ideal values, the reference's stage of the same number applied to the edge
  list: the two terms are the same tree of operations. They are read a stretch at a time, the few buffers a stretch reads
  named by the reference's stages before it is read, so that no term repeats the degree count once per use. No float
  argument is written by these stretches: the five float arguments are as launched.
-/
import proofs.«162332_j76278619177596_2_alg».proof.Proof.Gen.KernelIdeal.Frame
import proofs.«162332_j76278619177596_2_alg».proof.Proof.ReadP
import proofs.«162332_j76278619177596_2_alg».proof.Proof.LibTypedRefs
import Idealize.ShloMosaic.Lib.StableHlo.Run

set_option maxRecDepth 16384

noncomputable section

namespace Cert.KernelIdeal.Entry

open Cert.KernelIdeal Cert.KernelIdeal.Gen Idealize.ShloMosaic Idealize.ShloMosaic.TcCoe Idealize.SL.Sem
open Idealize.ShloMosaic.StableHlo

variable (m : (ℓ : Loc nD τ sig) → Buf (Elt Ideal) ℓ) (ρ : Dev nD → PrngReg)

/-! ## The arguments, as launched -/

theorem arg0 (c : Dev nD) :
    W3 m ρ c (Proc.devRef .tc main_arg0) = m ((c : Thread nD τ).loc main_arg0) := by
  show StableHlo.after hostOps0_2 (StableHlo.after hostOps0_1 (StableHlo.after hostOps0 (W0 m ρ c))) (Proc.devRef .tc main_arg0) = _
  after_results_simp <;> rfl

theorem arg2 (c : Dev nD) :
    W3 m ρ c (Proc.devRef .tc main_arg2) = m ((c : Thread nD τ).loc main_arg2) := by
  show StableHlo.after hostOps0_2 (StableHlo.after hostOps0_1 (StableHlo.after hostOps0 (W0 m ρ c))) (Proc.devRef .tc main_arg2) = _
  after_results_simp <;> rfl

theorem arg3 (c : Dev nD) :
    W3 m ρ c (Proc.devRef .tc main_arg3) = m ((c : Thread nD τ).loc main_arg3) := by
  show StableHlo.after hostOps0_2 (StableHlo.after hostOps0_1 (StableHlo.after hostOps0 (W0 m ρ c))) (Proc.devRef .tc main_arg3) = _
  after_results_simp <;> rfl

theorem arg4 (c : Dev nD) :
    W3 m ρ c (Proc.devRef .tc main_arg4) = m ((c : Thread nD τ).loc main_arg4) := by
  show StableHlo.after hostOps0_2 (StableHlo.after hostOps0_1 (StableHlo.after hostOps0 (W0 m ρ c))) (Proc.devRef .tc main_arg4) = _
  after_results_simp <;> rfl

theorem arg5 (c : Dev nD) :
    W3 m ρ c (Proc.devRef .tc main_arg5) = m ((c : Thread nD τ).loc main_arg5) := by
  show StableHlo.after hostOps0_2 (StableHlo.after hostOps0_1 (StableHlo.after hostOps0 (W0 m ρ c))) (Proc.devRef .tc main_arg5) = _
  after_results_simp <;> rfl

/-! ## The edge lists with the self-loops -/

/-- The source of every edge, the self-loops appended: the reference's stage 3 of the edge list. -/
theorem sources (c : Dev nD) :
    W3 m ρ c (Proc.devRef .tc main_v3) = Cert.ReferenceIdeal.ReadP.val_main_v3 (F := Ideal) (m ((c : Thread nD τ).loc main_arg1)) := by
  show StableHlo.after hostOps0_2 (StableHlo.after hostOps0_1 (StableHlo.after hostOps0 (W0 m ρ c))) (Proc.devRef .tc main_v3) = _
  after_results_simp <;> rfl

/-- The target of every edge, the self-loops appended: the reference's stage 6 of the edge list. -/
theorem targets (c : Dev nD) :
    W3 m ρ c (Proc.devRef .tc main_v6) = Cert.ReferenceIdeal.ReadP.val_main_v6 (F := Ideal) (m ((c : Thread nD τ).loc main_arg1)) := by
  show StableHlo.after hostOps0_2 (StableHlo.after hostOps0_1 (StableHlo.after hostOps0 (W0 m ρ c))) (Proc.devRef .tc main_v6) = _
  after_results_simp <;> rfl

/-! ## The edge weights, a stretch at a time -/

/-- After the first stretch: where the in-degree is positive. -/
theorem positive (c : Dev nD) :
    W1 m ρ c (Proc.devRef .tc main_v12) = Cert.ReferenceIdeal.ReadP.val_main_v12 (F := Ideal) (m ((c : Thread nD τ).loc main_arg1)) := by
  show StableHlo.after hostOps0 (W0 m ρ c) (Proc.devRef .tc main_v12) = _
  after_results_simp <;> rfl

/-- After the first stretch: the inverse square root of the in-degree. -/
theorem inverse_root (c : Dev nD) :
    W1 m ρ c (Proc.devRef .tc main_v13) = Cert.ReferenceIdeal.ReadP.val_main_v13 (F := Ideal) (m ((c : Thread nD τ).loc main_arg1)) := by
  show StableHlo.after hostOps0 (W0 m ρ c) (Proc.devRef .tc main_v13) = _
  after_results_simp <;> rfl

/-- After the first stretch: the zeros the selection falls back to. -/
theorem zeros (c : Dev nD) :
    W1 m ρ c (Proc.devRef .tc main_v14) = Cert.ReferenceIdeal.ReadP.val_main_v14 (F := Ideal) := by
  show StableHlo.after hostOps0 (W0 m ρ c) (Proc.devRef .tc main_v14) = _
  after_results_simp <;> rfl

/-- After the second stretch: the inverse square root of the in-degree where it is positive, zero elsewhere. The
    called function reads and writes through typed references, whose transports are the identity here. -/
theorem normalizer (c : Dev nD) :
    W2 m ρ c (Proc.devRef .tc main_v15) = Cert.ReferenceIdeal.ReadP.val_main_v15 (F := Ideal) (m ((c : Thread nD τ).loc main_arg1)) := by
  have h12 := positive m ρ c
  have h13 := inverse_root m ρ c
  have h14 := zeros m ρ c
  show StableHlo.after hostOps0_1 (W1 m ρ c) (Proc.devRef .tc main_v15) = _
  generalize W1 m ρ c = V at h12 h13 h14 ⊢
  after_results_simp
  rw [TRef.toBuf_self, TRef.ofBuf_self, TRef.ofBuf_self, TRef.ofBuf_self, h12, h13, h14]
  rfl

theorem sources_mid (c : Dev nD) :
    W2 m ρ c (Proc.devRef .tc main_v3) = Cert.ReferenceIdeal.ReadP.val_main_v3 (F := Ideal) (m ((c : Thread nD τ).loc main_arg1)) := by
  show StableHlo.after hostOps0_1 (StableHlo.after hostOps0 (W0 m ρ c)) (Proc.devRef .tc main_v3) = _
  after_results_simp <;> rfl

theorem targets_mid (c : Dev nD) :
    W2 m ρ c (Proc.devRef .tc main_v6) = Cert.ReferenceIdeal.ReadP.val_main_v6 (F := Ideal) (m ((c : Thread nD τ).loc main_arg1)) := by
  show StableHlo.after hostOps0_1 (StableHlo.after hostOps0 (W0 m ρ c)) (Proc.devRef .tc main_v6) = _
  after_results_simp <;> rfl

/-- The weight of every edge — the normalizer at its source times the normalizer at its target: the reference's
    stage 30 of the edge list. -/
theorem weights (c : Dev nD) :
    W3 m ρ c (Proc.devRef .tc main_v30) = Cert.ReferenceIdeal.ReadP.val_main_v30 (F := Ideal) (m ((c : Thread nD τ).loc main_arg1)) := by
  have h15 := normalizer m ρ c
  have h3 := sources_mid m ρ c
  have h6 := targets_mid m ρ c
  show StableHlo.after hostOps0_2 (W2 m ρ c) (Proc.devRef .tc main_v30) = _
  generalize W2 m ρ c = V at h15 h3 h6 ⊢
  after_results_simp
  rw [h15, h3, h6]
  rfl

end Cert.KernelIdeal.Entry

end
-- ==== Proof.LibRowCols.lean ====
/-
  A product of two rank-2 arrays with the left operand's SECOND axis against the right operand's FIRST axis,
  `[A, K] × [K, B] → [A, B]` — every row of the left operand against every column of the right one, as a plain
  `tpu.matmul` into the zero accumulator computes it —, read at `(i, c)` at the ideal values (floats are extended
  reals): the sum over `k` of `l (i, k) * r (k, c)`. Stated for any extents, with every index written by coordinates.
-/
import Idealize.ShloMosaic.PureOps.Ideal
import Idealize.ShloMosaic.PureOps.Ideal.Laws
import Idealize.ShloMosaic.Lib.ValueIdx

noncomputable section

open scoped BigOperators

namespace Idealize.ShloMosaic.RowCols

open Idealize.ShloMosaic Idealize.ShloMosaic.ValueIdx

/-- A rank-2 index whose coordinates have the values of `a` and `b` is `ix2 a b`. -/
theorem idx2_of_vals {n0 n1 : Nat} (j : (⟨2, ![n0, n1]⟩ : Shape).Idx) (a : Fin n0) (b : Fin n1)
    (h0 : (j 0).val = a.val) (h1 : (j 1).val = b.val) : j = ix2 a b :=
  funext fun c => Fin.ext (by match c with | ⟨0, _⟩ => exact h0 | ⟨1, _⟩ => exact h1)

/-- The dimension numbers of `[A, K] × [K, B] → [A, B]`: the left operand's axis 1 contracted with the right
    operand's axis 0, no batch axis. -/
abbrev colsDims {A K B : Nat}
    (wf : DotDims.WF (⟨2, ![A, K]⟩ : Shape) ⟨2, ![K, B]⟩ ⟨2, ![A, B]⟩ [1] [0] [0] [1] [] []) :
    DotDims (⟨2, ![A, K]⟩ : Shape) ⟨2, ![K, B]⟩ ⟨2, ![A, B]⟩ :=
  ⟨[1], [0], [0], [1], [], [], wf⟩

/-- Off the contracted axis the left operand's index is the result's row. -/
theorem cols_lhs0 {A K B : Nat} (wf : DotDims.WF (⟨2, ![A, K]⟩ : Shape) ⟨2, ![K, B]⟩ ⟨2, ![A, B]⟩ [1] [0] [0] [1] [] [])
    (j : (⟨2, ![A, B]⟩ : Shape).Idx) (q : (colsDims wf).contr.Idx) :
    ((colsDims wf).lhsIdx j q 0).val = (j 0).val := by
  unfold DotDims.lhsIdx
  rw [dif_neg (show ¬(0 : Fin 2) ∈ ([] : List (Fin 2)) from List.not_mem_nil),
    dif_pos (show (0 : Fin 2) ∈ ([0] : List (Fin 2)) from List.mem_singleton.mpr rfl)]
  rfl

/-- Off the contracted axis the right operand's index is the result's column. -/
theorem cols_rhs1 {A K B : Nat} (wf : DotDims.WF (⟨2, ![A, K]⟩ : Shape) ⟨2, ![K, B]⟩ ⟨2, ![A, B]⟩ [1] [0] [0] [1] [] [])
    (j : (⟨2, ![A, B]⟩ : Shape).Idx) (q : (colsDims wf).contr.Idx) :
    ((colsDims wf).rhsIdx j q 1).val = (j 1).val := by
  unfold DotDims.rhsIdx
  rw [dif_neg (show ¬(1 : Fin 2) ∈ ([] : List (Fin 2)) from List.not_mem_nil),
    dif_pos (show (1 : Fin 2) ∈ ([1] : List (Fin 2)) from List.mem_singleton.mpr rfl)]
  rfl

/-- The contraction sum of a rows-against-columns product, re-indexed by the contracted coordinate: at `j = (i, c)`
    the left operand is read along its row `i`, the right one along its column `c`. -/
theorem colsDot_sum {A K B : Nat} (d : DotDims (⟨2, ![A, K]⟩ : Shape) ⟨2, ![K, B]⟩ ⟨2, ![A, B]⟩)
    (hd : ∃ wf, d = colsDims wf)
    (l : (⟨2, ![A, K]⟩ : Shape).Idx → EReal) (r : (⟨2, ![K, B]⟩ : Shape).Idx → EReal) (j : (⟨2, ![A, B]⟩ : Shape).Idx) :
    ∑ k : d.contr.Idx, l (d.lhsIdx j k) * r (d.rhsIdx j k) = ∑ k : Fin K, l (ix2 (j 0) k) * r (ix2 k (j 1)) := by
  obtain ⟨wf, rfl⟩ := hd
  rw [← Equiv.sum_comp (contrEquiv1 (colsDims wf) K rfl rfl).symm]
  refine Finset.sum_congr rfl fun k _ => ?_
  have hk := contrEquiv1_symm_val (colsDims wf) K rfl rfl k
  have el : (colsDims wf).lhsIdx j ((contrEquiv1 (colsDims wf) K rfl rfl).symm k) = ix2 (j 0) k :=
    idx2_of_vals _ _ _ (cols_lhs0 wf j _) (((colsDims wf).lhsIdx_val_of_single (cl := 1) rfl j _).trans hk)
  have er : (colsDims wf).rhsIdx j ((contrEquiv1 (colsDims wf) K rfl rfl).symm k) = ix2 k (j 1) :=
    idx2_of_vals _ _ _ (((colsDims wf).rhsIdx_val_of_single (cr := 0) rfl j _).trans hk) (cols_rhs1 wf j _)
  rw [el, er]
  rfl

/-- A `tpu.matmul` of rows against columns into the zero accumulator, read at `(i, c)`: the sum over `k` of
    `l (i, k) * r (k, c)`. -/
theorem matmul_zero_cols_apply {A K B : Nat} {φ₁ φ₂ : FTy} (d : DotDims (⟨2, ![A, K]⟩ : Shape) ⟨2, ![K, B]⟩ ⟨2, ![A, B]⟩)
    (hd : ∃ wf, d = colsDims wf) (prec : Option ContractPrecision)
    (l : FVec Ideal (⟨2, ![A, K]⟩ : Shape) φ₁) (r : FVec Ideal (⟨2, ![K, B]⟩ : Shape) φ₂) (i : Fin A) (c : Fin B) :
    FloatOps.matmul d prec l r (constant (⟨2, ![A, B]⟩ : Shape) .f32 0x00000000#32) (ix2 i c)
      = ∑ k : Fin K, l (ix2 i k) * r (ix2 k c) := by
  rw [Ideal.matmul_constant_zero_apply]
  exact colsDot_sum d hd l r (ix2 i c)

end Idealize.ShloMosaic.RowCols

end
-- ==== Proof.Product.lean ====
/-
  The product of two matrices, rows against columns, on the extended reals — the one function both programs compute
  with their matrix units: entry `(r, c)` of `x · w` is the sum over `k` of `x (r, k) * w (k, c)`.

  The reference computes it with one `dot_general` over the whole arrays; the kernel computes it a block of rows at a
  time, each block a `tpu.matmul` into the zero accumulator. Read at an index both are this sum: an entry of a block of
  rows only reads its own row of `x` and the whole of `w`, so cutting `x` into blocks of rows changes nothing, and the
  zero the accumulator starts from is the unit of the sum. No entry needs to be finite for this: the same sum, over the
  same index set, is written on both sides.
-/
import Idealize.ShloMosaic.PureOps.Ideal
import Idealize.ShloMosaic.PureOps.Ideal.Laws
import Idealize.ShloMosaic.Lib.ValueIdx
import proofs.«162332_j76278619177596_2_alg».proof.Proof.LibRowCols

noncomputable section

open scoped BigOperators

namespace Cert.Gcn

open Idealize.ShloMosaic Idealize.ShloMosaic.ValueIdx Idealize.ShloMosaic.RowCols

/-- The product `x · w` of an `[A, K]` array with a `[K, B]` array: entry `i = (r, c)` is the sum over `k` of
    `x (r, k) * w (k, c)`. -/
def product {A K B : Nat} (x : (⟨2, ![A, K]⟩ : Shape).Idx → EReal) (w : (⟨2, ![K, B]⟩ : Shape).Idx → EReal) :
    (⟨2, ![A, B]⟩ : Shape).Idx → EReal :=
  fun i => ∑ k : Fin K, x (ix2 (i 0) k) * w (ix2 k (i 1))

/-- The host's `dot_general` with the left operand's second axis against the right operand's first, at the ideal
    values, is the product. -/
theorem dotGeneral_eq_product {A K B : Nat} {φ₁ φ₂ : FTy}
    (d : DotDims (⟨2, ![A, K]⟩ : Shape) ⟨2, ![K, B]⟩ ⟨2, ![A, B]⟩) (hd : ∃ wf, d = colsDims wf)
    (l : FVec Ideal (⟨2, ![A, K]⟩ : Shape) φ₁) (r : FVec Ideal (⟨2, ![K, B]⟩ : Shape) φ₂) :
    Host.dotGeneral (F := Ideal) d none l r = product l r := by
  funext i
  simp only [Host.dotGeneral]
  rw [Ideal.dotGeneral_apply]
  exact colsDot_sum d hd l r i

/-- An entry of a block of rows of the product. The block's `tpu.matmul` into the zero accumulator, read at the entry
    `j` of the block, is the product's entry `i` as soon as row `j 0` of the left block is row `i 0` of the left array,
    column `j 1` of the right block is column `i 1` of the right array. `A'` is the number of rows of a block. -/
theorem matmul_block_entry {A A' K B : Nat} {φ₁ φ₂ : FTy}
    (d : DotDims (⟨2, ![A', K]⟩ : Shape) ⟨2, ![K, B]⟩ ⟨2, ![A', B]⟩) (hd : ∃ wf, d = colsDims wf)
    (prec : Option ContractPrecision)
    (x0 : FVec Ideal (⟨2, ![A', K]⟩ : Shape) φ₁) (x1 : FVec Ideal (⟨2, ![K, B]⟩ : Shape) φ₂)
    (X : (⟨2, ![A, K]⟩ : Shape).Idx → EReal) (W : (⟨2, ![K, B]⟩ : Shape).Idx → EReal)
    (j : (⟨2, ![A', B]⟩ : Shape).Idx) (i : (⟨2, ![A, B]⟩ : Shape).Idx)
    (h0 : ∀ k : Fin K, x0 (ix2 (j 0) k) = X (ix2 (i 0) k))
    (h1 : ∀ k : Fin K, x1 (ix2 k (j 1)) = W (ix2 k (i 1))) :
    FloatOps.matmul d prec x0 x1 (constant (⟨2, ![A', B]⟩ : Shape) .f32 0x00000000#32) j = product X W i := by
  refine (congrArg (FloatOps.matmul d prec x0 x1 (constant (⟨2, ![A', B]⟩ : Shape) .f32 0x00000000#32)) (eq_ix2 j)).trans
    ((matmul_zero_cols_apply d hd prec x0 x1 (j 0) (j 1)).trans ?_)
  exact Finset.sum_congr rfl fun k _ => by rw [h0 k, h1 k]

end Cert.Gcn

end
-- ==== Proof.FirstProduct.lean ====
/-
  What the first pallas_call leaves in its result array: the product of its two operand arrays.

  The call tiles the 100000 rows of its left operand into 20 blocks of 5000 rows; at grid point `t` it fetches block `t` of
  the left operand and the whole right operand, multiplies them on the matrix unit into a zero accumulator, and
  writes the result back as block `t` of the result array. An entry of the block's product reads its own row of the left
  block — which is a row of the left array, at the block's offset — and a column of the right operand, so what point
  `t` writes back is block `t` of the product of the whole arrays; the 20 blocks tile the result array (row `r` is in
  block `r / 5000`), so the array ends as that product. Stated at the contents `V` the region is entered with, whatever
  they are.
-/
import proofs.«162332_j76278619177596_2_alg».proof.Proof.Gen.KernelIdeal.Frame
import proofs.«162332_j76278619177596_2_alg».proof.Proof.Product
import Idealize.ShloMosaic.Lib.Pipeline.Value

set_option maxRecDepth 16384

noncomputable section

namespace Cert.KernelIdeal.FirstProduct

open Cert.KernelIdeal Cert.KernelIdeal.Gen Idealize.ShloMosaic Idealize.ShloMosaic.TcCoe Idealize.SL.Sem
open Idealize.ShloMosaic.Pipeline (Dat)
open Idealize.ShloMosaic.ValueIdx

variable (V : (c : Dev nD) → (b : Ref sig .tc) → Buf (Elt Ideal) ((c : Thread nD τ).loc b))

/-- The body's loads and its store start at the origin of their buffers. -/
theorem origin : (![0, 0] : Fin 2 → Nat) = fun _ => 0 := funext fun a => by fin_cases a <;> rfl

/-- An entry of the body's product of a block of rows, as an entry of the product of whole arrays: entry `j` of the
    block is entry `i` of the product of `X` and `W` when row `j 0` of the left block is row `i 0` of `X` and column
    `j 1` of the right block is column `i 1` of `W`. -/
theorem block_entry (x0 : Vec Ideal S5000x512 .f32) (x1 : Vec Ideal S512x16 .f32)
    (X : S100000x512.Idx → EReal) (W : S512x16.Idx → EReal) (j : S5000x16.Idx) (i : S100000x16.Idx)
    (h0 : ∀ k : Fin 512, x0 (ix2 (j 0) k) = X (ix2 (i 0) k))
    (h1 : ∀ k : Fin 512, x1 (ix2 k (j 1)) = W (ix2 k (i 1))) :
    k0_pay1 (F := Ideal) x0 x1 j = Gcn.product (A := 100000) (K := 512) (B := 16) X W i :=
  Gcn.matmul_block_entry (A := 100000) dot_S5000x512_S512x16_S5000x16_1_0_0_1_n_n ⟨_, rfl⟩ none x0 x1 X W j i
    h0 h1

/-- Where the blocks sit, decided over the grid: at point `t` the left operand's block and the result's block are at
    the same block row, in the only block column; the right operand's only block is fetched whole. -/
theorem block_positions : ∀ t : Fin cfg0.N, win0_0.index t (0 : Fin 2) = win0_2.index t (0 : Fin 2)
    ∧ win0_0.index t (1 : Fin 2) = 0 ∧ win0_1.index t (0 : Fin 2) = 0 ∧ win0_1.index t (1 : Fin 2) = 0
    ∧ win0_2.index t (1 : Fin 2) = 0 ∧ win0_2.index t (0 : Fin 2) ≤ 19 :=
  (by decide +kernel : ∀ t : Fin grid0.N, _)

/-- Every block row of the result array is some point's. -/
theorem every_block : ∀ q : Fin 20, ∃ t : Fin cfg0.N, win0_2.index t = ![q.val, 0] :=
  (by decide +kernel : ∀ q : Fin 20, ∃ t : Fin grid0.N, win0_2.index t = ![q.val, 0])

/-- What point `t` writes back is block `t` of the product of the operand arrays as the region finds them. -/
theorem flushed_eq (c : Dev nD) (t : Fin cfg0.N) :
    (dat0 V c).flushed 2 t = ((cfg0.win 2).blk t).view.read (Elt Ideal)
      (Gcn.product (A := 100000) (K := 512) (B := 16) (V c main_arg0) (V c main_arg2)) := by
  show (cfg0.win 2).cut (grid0.coords t) ((dat0 V c).after 2 t) = _
  rw [after0_2]
  unfold out0_2
  rw [View.canon_unit_zero origin]
  simp only [View.ld_unit_zero (S := S5000x512) origin, View.ld_unit_zero (S := S512x16) origin]
  obtain ⟨e0, e1, e2, e3, e4, e5⟩ := block_positions t
  funext j
  refine block_entry (iblk0 V c 0 t) (iblk0 V c 1 t) (V c main_arg0) (V c main_arg2) j (((cfg0.win 2).blk t).view.emb j)
    (fun k => ?_) (fun k => ?_)
  · show V c main_arg0 (((cfg0.win 0).blk t).view.emb (ix2 (j 0) k))
      = V c main_arg0 (ix2 ((((cfg0.win 2).blk t).view.emb j) 0) k)
    refine congrArg (V c main_arg0) (funext fun a => Fin.ext ?_)
    match a with
    | ⟨0, _⟩ =>
      show win0_0.index t (0 : Fin 2) * 5000 + 1 * (j 0).val = win0_2.index t (0 : Fin 2) * 5000 + 1 * (j 0).val
      omega
    | ⟨1, _⟩ =>
      show win0_0.index t (1 : Fin 2) * 512 + 1 * k.val = k.val
      omega
  · show V c main_arg2 (((cfg0.win 1).blk t).view.emb (ix2 k (j 1)))
      = V c main_arg2 (ix2 k ((((cfg0.win 2).blk t).view.emb j) 1))
    refine congrArg (V c main_arg2) (funext fun a => Fin.ext ?_)
    match a with
    | ⟨0, _⟩ =>
      show win0_1.index t (0 : Fin 2) * 512 + 1 * k.val = k.val
      omega
    | ⟨1, _⟩ =>
      show win0_1.index t (1 : Fin 2) * 16 + 1 * (j 1).val = win0_2.index t (1 : Fin 2) * 16 + 1 * (j 1).val
      omega

/-- An index of the result array is in point `t`'s block when each coordinate is in the block's range on its axis. -/
theorem mem_block (t : Fin cfg0.N) (i : S100000x16.Idx) :
    i ∈ ((cfg0.win 2).blk t).view.set ↔ ∀ a : Fin 2, win0_2.index t a * S5000x16.size a ≤ (i a).val
      ∧ (i a).val < win0_2.index t a * S5000x16.size a + S5000x16.size a := by
  show i ∈ ((View.whole main_v31).slice (win0_2.rect t)).set ↔ _
  rw [View.set_slice_whole, Rect.mem_set_unit]
  exact Iff.rfl

/-- The blocks tile the result array: row `r` is in the block of point `r / 5000`, and every point writes back. -/
theorem covered (i : S100000x16.Idx) :
    ∃ t : Fin cfg0.N, (cfg0.win 2).flush t = true ∧ i ∈ ((cfg0.win 2).blk t).view.set := by
  have hi0 : (i 0).val < 100000 := (i 0).isLt
  have hi1 : (i 1).val < 16 := (i 1).isLt
  obtain ⟨t, ht⟩ := every_block ⟨(i 0).val / 5000, by omega⟩
  have q0 : win0_2.index t (0 : Fin 2) = (i 0).val / 5000 := congrFun ht 0
  have q1 : win0_2.index t (1 : Fin 2) = 0 := congrFun ht 1
  refine ⟨t, flush0_2 t, ?_⟩
  rw [mem_block]
  intro a
  match a with
  | ⟨0, _⟩ =>
    show win0_2.index t (0 : Fin 2) * 5000 ≤ (i 0).val ∧ (i 0).val < win0_2.index t (0 : Fin 2) * 5000 + 5000
    omega
  | ⟨1, _⟩ =>
    show win0_2.index t (1 : Fin 2) * 16 ≤ (i 1).val ∧ (i 1).val < win0_2.index t (1 : Fin 2) * 16 + 16
    omega

/-- The result array after the region: the product of the operand arrays as the region finds them. -/
theorem final (c : Dev nD) :
    (dat0 V c).arrAt 2 cfg0.N = Gcn.product (A := 100000) (K := 512) (B := 16) (V c main_arg0) (V c main_arg2) :=
  (dat0 V c).arrAt_eq_of_cover 2 _ (fun t _ => flushed_eq V c t) (covered)

end Cert.KernelIdeal.FirstProduct

end
-- ==== Proof.Between.lean ====
/-
  From the first pallas_call's exit to the second one's entry.

  The first pallas_call leaves in its result array the product of the node features with the first weight matrix (its
  blocks of rows tile the array), which is what the reference's `dot_general` computes: stage 31. It writes no other
  buffer, so the edge lists and the edge weights are still the reference's stages 3, 6 and 30. The two stretches of host
  operations that follow — gather the product's rows at the edges' sources, scale them by the edge weights, add them up at
  the edges' targets, add the first bias; then, inside a called function, clamp at zero — are the reference's operations
  32 to 48 on those same values, so the second pallas_call is entered with its left operand at the reference's stage 48.
-/
import proofs.«162332_j76278619177596_2_alg».proof.Proof.Entry
import proofs.«162332_j76278619177596_2_alg».proof.Proof.FirstProduct

set_option maxRecDepth 16384

noncomputable section

namespace Cert.KernelIdeal.Between

open Cert.KernelIdeal Cert.KernelIdeal.Gen Idealize.ShloMosaic Idealize.ShloMosaic.TcCoe Idealize.SL.Sem
open Idealize.ShloMosaic.StableHlo

variable (m : (ℓ : Loc nD τ sig) → Buf (Elt Ideal) ℓ) (ρ : Dev nD → PrngReg)

/-- The reference's first `dot_general`, at the ideal values, is the product of its operands. -/
theorem stage31_eq (x0 : (⟨Cert.ReferenceIdeal.S100000x512, .f32⟩ : BufTy).Contents (Elt Ideal))
    (x2 : (⟨Cert.ReferenceIdeal.S512x16, .f32⟩ : BufTy).Contents (Elt Ideal)) :
    Cert.ReferenceIdeal.ReadP.val_main_v31 (F := Ideal) x0 x2 = Gcn.product (A := 100000) (K := 512) (B := 16) x0 x2 := by
  unfold Cert.ReferenceIdeal.ReadP.val_main_v31
  exact Gcn.dotGeneral_eq_product Cert.ReferenceIdeal.dot_S100000x512_S512x16_S100000x16_1_0_0_1_n_n ⟨_, rfl⟩ x0 x2

/-! ## At the first pallas_call's exit -/

/-- The first pallas_call's result array: the features times the first weight matrix, the reference's stage 31. -/
theorem features (c : Dev nD) :
    W4 m ρ c (Proc.devRef .tc main_v31) = Cert.ReferenceIdeal.ReadP.val_main_v31 (F := Ideal) (m ((c : Thread nD τ).loc main_arg0)) (m ((c : Thread nD τ).loc main_arg2)) := by
  refine (W4_arr m ρ c 2).trans ((FirstProduct.final (V3 m ρ) c).trans ?_)
  rw [show V3 m ρ c main_arg0 = m ((c : Thread nD τ).loc main_arg0) from Entry.arg0 m ρ c,
    show V3 m ρ c main_arg2 = m ((c : Thread nD τ).loc main_arg2) from Entry.arg2 m ρ c]
  exact (stage31_eq _ _).symm

theorem weights (c : Dev nD) :
    W4 m ρ c (Proc.devRef .tc main_v30) = Cert.ReferenceIdeal.ReadP.val_main_v30 (F := Ideal) (m ((c : Thread nD τ).loc main_arg1)) :=
  (W4_of_ne m ρ c main_v30 (by decide)).trans (Entry.weights m ρ c)
theorem sources (c : Dev nD) :
    W4 m ρ c (Proc.devRef .tc main_v3) = Cert.ReferenceIdeal.ReadP.val_main_v3 (F := Ideal) (m ((c : Thread nD τ).loc main_arg1)) :=
  (W4_of_ne m ρ c main_v3 (by decide)).trans (Entry.sources m ρ c)
theorem targets (c : Dev nD) :
    W4 m ρ c (Proc.devRef .tc main_v6) = Cert.ReferenceIdeal.ReadP.val_main_v6 (F := Ideal) (m ((c : Thread nD τ).loc main_arg1)) :=
  (W4_of_ne m ρ c main_v6 (by decide)).trans (Entry.targets m ρ c)
theorem arg3 (c : Dev nD) : W4 m ρ c (Proc.devRef .tc main_arg3) = m ((c : Thread nD τ).loc main_arg3) :=
  (W4_of_ne m ρ c main_arg3 (by decide)).trans (Entry.arg3 m ρ c)
theorem arg4 (c : Dev nD) : W4 m ρ c (Proc.devRef .tc main_arg4) = m ((c : Thread nD τ).loc main_arg4) :=
  (W4_of_ne m ρ c main_arg4 (by decide)).trans (Entry.arg4 m ρ c)
theorem arg5 (c : Dev nD) : W4 m ρ c (Proc.devRef .tc main_arg5) = m ((c : Thread nD τ).loc main_arg5) :=
  (W4_of_ne m ρ c main_arg5 (by decide)).trans (Entry.arg5 m ρ c)

/-! ## The first layer's aggregation and bias -/

set_option maxHeartbeats 4000000 in
/-- After the third stretch: the first layer before the clamp, the reference's stage 47. -/
theorem layer_one (c : Dev nD) :
    W5 m ρ c (Proc.devRef .tc main_v47)
      = Cert.ReferenceIdeal.ReadP.val_main_v47 (F := Ideal) (m ((c : Thread nD τ).loc main_arg0)) (m ((c : Thread nD τ).loc main_arg1)) (m ((c : Thread nD τ).loc main_arg2)) (m ((c : Thread nD τ).loc main_arg3)) := by
  show StableHlo.after hostOps1 (W4 m ρ c) (Proc.devRef .tc main_v47) = _
  after_results_simp
  rw [weights m ρ c, sources m ρ c, targets m ρ c, arg3 m ρ c, features m ρ c]
  rfl

/-! ## At the second pallas_call's entry -/

/-- The second pallas_call's left operand: the first layer clamped at zero, the reference's stage 48. The called
    function reads and writes through typed references, whose transports are the identity here. -/
theorem hidden (c : Dev nD) :
    W6 m ρ c (Proc.devRef .tc main_v48)
      = Cert.ReferenceIdeal.ReadP.val_main_v48 (F := Ideal) (m ((c : Thread nD τ).loc main_arg0)) (m ((c : Thread nD τ).loc main_arg1)) (m ((c : Thread nD τ).loc main_arg2)) (m ((c : Thread nD τ).loc main_arg3)) := by
  have h47 := layer_one m ρ c
  show StableHlo.after hostOps1_1 (W5 m ρ c) (Proc.devRef .tc main_v48) = _
  generalize W5 m ρ c = V at h47 ⊢
  after_results_simp
  repeat (first | rw [TRef.toBuf_self] | rw [TRef.ofBuf_self])
  rw [h47]
  rfl

theorem weights' (c : Dev nD) :
    W6 m ρ c (Proc.devRef .tc main_v30) = W4 m ρ c (Proc.devRef .tc main_v30) := by
  show StableHlo.after hostOps1_1 (StableHlo.after hostOps1 (W4 m ρ c)) (Proc.devRef .tc main_v30) = _
  after_results_simp <;> rfl
theorem sources' (c : Dev nD) :
    W6 m ρ c (Proc.devRef .tc main_v3) = W4 m ρ c (Proc.devRef .tc main_v3) := by
  show StableHlo.after hostOps1_1 (StableHlo.after hostOps1 (W4 m ρ c)) (Proc.devRef .tc main_v3) = _
  after_results_simp <;> rfl
theorem targets' (c : Dev nD) :
    W6 m ρ c (Proc.devRef .tc main_v6) = W4 m ρ c (Proc.devRef .tc main_v6) := by
  show StableHlo.after hostOps1_1 (StableHlo.after hostOps1 (W4 m ρ c)) (Proc.devRef .tc main_v6) = _
  after_results_simp <;> rfl
theorem arg4' (c : Dev nD) :
    W6 m ρ c (Proc.devRef .tc main_arg4) = W4 m ρ c (Proc.devRef .tc main_arg4) := by
  show StableHlo.after hostOps1_1 (StableHlo.after hostOps1 (W4 m ρ c)) (Proc.devRef .tc main_arg4) = _
  after_results_simp <;> rfl
theorem arg5' (c : Dev nD) :
    W6 m ρ c (Proc.devRef .tc main_arg5) = W4 m ρ c (Proc.devRef .tc main_arg5) := by
  show StableHlo.after hostOps1_1 (StableHlo.after hostOps1 (W4 m ρ c)) (Proc.devRef .tc main_arg5) = _
  after_results_simp <;> rfl

end Cert.KernelIdeal.Between

end
-- ==== Proof.SecondProduct.lean ====
/-
  What the second pallas_call leaves in its result array: the product of its two operand arrays.

  The call tiles the 100000 rows of its left operand into 10 blocks of 10000 rows; at grid point `t` it fetches block `t` of
  the left operand and the whole right operand, multiplies them on the matrix unit into a zero accumulator (after a cast of the left block to its own shape, which changes nothing), and
  writes the result back as block `t` of the result array. An entry of the block's product reads its own row of the left
  block — which is a row of the left array, at the block's offset — and a column of the right operand, so what point
  `t` writes back is block `t` of the product of the whole arrays; the 10 blocks tile the result array (row `r` is in
  block `r / 10000`), so the array ends as that product. Stated at the contents `V` the region is entered with, whatever
  they are.
-/
import proofs.«162332_j76278619177596_2_alg».proof.Proof.Gen.KernelIdeal.Frame
import proofs.«162332_j76278619177596_2_alg».proof.Proof.Product
import Idealize.ShloMosaic.Lib.Pipeline.Value

set_option maxRecDepth 16384

noncomputable section

namespace Cert.KernelIdeal.SecondProduct

open Cert.KernelIdeal Cert.KernelIdeal.Gen Idealize.ShloMosaic Idealize.ShloMosaic.TcCoe Idealize.SL.Sem
open Idealize.ShloMosaic.Pipeline (Dat)
open Idealize.ShloMosaic.ValueIdx

variable (V : (c : Dev nD) → (b : Ref sig .tc) → Buf (Elt Ideal) ((c : Thread nD τ).loc b))

/-- The body's loads and its store start at the origin of their buffers. -/
theorem origin : (![0, 0] : Fin 2 → Nat) = fun _ => 0 := funext fun a => by fin_cases a <;> rfl

/-- An entry of the body's product of a block of rows, as an entry of the product of whole arrays: entry `j` of the
    block is entry `i` of the product of `X` and `W` when row `j 0` of the left block is row `i 0` of `X` and column
    `j 1` of the right block is column `i 1` of `W`. -/
theorem block_entry (x0 : Vec Ideal S10000x16 .f32) (x1 : Vec Ideal S16x7 .f32)
    (X : S100000x16.Idx → EReal) (W : S16x7.Idx → EReal) (j : S10000x7.Idx) (i : S100000x7.Idx)
    (h0 : ∀ k : Fin 16, x0 (ix2 (j 0) k) = X (ix2 (i 0) k))
    (h1 : ∀ k : Fin 16, x1 (ix2 k (j 1)) = W (ix2 k (i 1))) :
    k1_pay1 (F := Ideal) x0 x1 j = Gcn.product (A := 100000) (K := 16) (B := 7) X W i :=
  Gcn.matmul_block_entry (A := 100000) dot_S10000x16_S16x7_S10000x7_1_0_0_1_n_n ⟨_, rfl⟩ none (shapeCast S10000x16 x0 shapeCasts_S10000x16_S10000x16) x1 X W j i
    (fun k => (congrFun (shapeCast_self x0 shapeCasts_S10000x16_S10000x16) _).trans (h0 k)) h1

/-- Where the blocks sit, decided over the grid: at point `t` the left operand's block and the result's block are at
    the same block row, in the only block column; the right operand's only block is fetched whole. -/
theorem block_positions : ∀ t : Fin cfg1.N, win1_0.index t (0 : Fin 2) = win1_2.index t (0 : Fin 2)
    ∧ win1_0.index t (1 : Fin 2) = 0 ∧ win1_1.index t (0 : Fin 2) = 0 ∧ win1_1.index t (1 : Fin 2) = 0
    ∧ win1_2.index t (1 : Fin 2) = 0 ∧ win1_2.index t (0 : Fin 2) ≤ 9 :=
  (by decide +kernel : ∀ t : Fin grid1.N, _)

/-- Every block row of the result array is some point's. -/
theorem every_block : ∀ q : Fin 10, ∃ t : Fin cfg1.N, win1_2.index t = ![q.val, 0] :=
  (by decide +kernel : ∀ q : Fin 10, ∃ t : Fin grid1.N, win1_2.index t = ![q.val, 0])

/-- What point `t` writes back is block `t` of the product of the operand arrays as the region finds them. -/
theorem flushed_eq (c : Dev nD) (t : Fin cfg1.N) :
    (dat1 V c).flushed 2 t = ((cfg1.win 2).blk t).view.read (Elt Ideal)
      (Gcn.product (A := 100000) (K := 16) (B := 7) (V c main_v48) (V c main_arg4)) := by
  show (cfg1.win 2).cut (grid1.coords t) ((dat1 V c).after 2 t) = _
  rw [after1_2]
  unfold out1_2
  rw [View.canon_unit_zero origin]
  simp only [View.ld_unit_zero (S := S10000x16) origin, View.ld_unit_zero (S := S16x7) origin]
  obtain ⟨e0, e1, e2, e3, e4, e5⟩ := block_positions t
  funext j
  refine block_entry (iblk1 V c 0 t) (iblk1 V c 1 t) (V c main_v48) (V c main_arg4) j (((cfg1.win 2).blk t).view.emb j)
    (fun k => ?_) (fun k => ?_)
  · show V c main_v48 (((cfg1.win 0).blk t).view.emb (ix2 (j 0) k))
      = V c main_v48 (ix2 ((((cfg1.win 2).blk t).view.emb j) 0) k)
    refine congrArg (V c main_v48) (funext fun a => Fin.ext ?_)
    match a with
    | ⟨0, _⟩ =>
      show win1_0.index t (0 : Fin 2) * 10000 + 1 * (j 0).val = win1_2.index t (0 : Fin 2) * 10000 + 1 * (j 0).val
      omega
    | ⟨1, _⟩ =>
      show win1_0.index t (1 : Fin 2) * 16 + 1 * k.val = k.val
      omega
  · show V c main_arg4 (((cfg1.win 1).blk t).view.emb (ix2 k (j 1)))
      = V c main_arg4 (ix2 k ((((cfg1.win 2).blk t).view.emb j) 1))
    refine congrArg (V c main_arg4) (funext fun a => Fin.ext ?_)
    match a with
    | ⟨0, _⟩ =>
      show win1_1.index t (0 : Fin 2) * 16 + 1 * k.val = k.val
      omega
    | ⟨1, _⟩ =>
      show win1_1.index t (1 : Fin 2) * 7 + 1 * (j 1).val = win1_2.index t (1 : Fin 2) * 7 + 1 * (j 1).val
      omega

/-- An index of the result array is in point `t`'s block when each coordinate is in the block's range on its axis. -/
theorem mem_block (t : Fin cfg1.N) (i : S100000x7.Idx) :
    i ∈ ((cfg1.win 2).blk t).view.set ↔ ∀ a : Fin 2, win1_2.index t a * S10000x7.size a ≤ (i a).val
      ∧ (i a).val < win1_2.index t a * S10000x7.size a + S10000x7.size a := by
  show i ∈ ((View.whole main_v49).slice (win1_2.rect t)).set ↔ _
  rw [View.set_slice_whole, Rect.mem_set_unit]
  exact Iff.rfl

/-- The blocks tile the result array: row `r` is in the block of point `r / 10000`, and every point writes back. -/
theorem covered (i : S100000x7.Idx) :
    ∃ t : Fin cfg1.N, (cfg1.win 2).flush t = true ∧ i ∈ ((cfg1.win 2).blk t).view.set := by
  have hi0 : (i 0).val < 100000 := (i 0).isLt
  have hi1 : (i 1).val < 7 := (i 1).isLt
  obtain ⟨t, ht⟩ := every_block ⟨(i 0).val / 10000, by omega⟩
  have q0 : win1_2.index t (0 : Fin 2) = (i 0).val / 10000 := congrFun ht 0
  have q1 : win1_2.index t (1 : Fin 2) = 0 := congrFun ht 1
  refine ⟨t, flush1_2 t, ?_⟩
  rw [mem_block]
  intro a
  match a with
  | ⟨0, _⟩ =>
    show win1_2.index t (0 : Fin 2) * 10000 ≤ (i 0).val ∧ (i 0).val < win1_2.index t (0 : Fin 2) * 10000 + 10000
    omega
  | ⟨1, _⟩ =>
    show win1_2.index t (1 : Fin 2) * 7 ≤ (i 1).val ∧ (i 1).val < win1_2.index t (1 : Fin 2) * 7 + 7
    omega

/-- The result array after the region: the product of the operand arrays as the region finds them. -/
theorem final (c : Dev nD) :
    (dat1 V c).arrAt 2 cfg1.N = Gcn.product (A := 100000) (K := 16) (B := 7) (V c main_v48) (V c main_arg4) :=
  (dat1 V c).arrAt_eq_of_cover 2 _ (fun t _ => flushed_eq V c t) (covered)

end Cert.KernelIdeal.SecondProduct

end
-- ==== Proof.KernelRun.lean ====
/-
  The idealized kernel's run, with its result named.

  @main is eight segments: three stretches of host operations (the edge lists with the self-loops appended, the degree
  count, its inverse square root, the edge weights), the first pallas_call (the row-tiled product of the features with the
  first weight matrix), two stretches (gather, scale, scatter-add, bias, clamp at zero), the second pallas_call (the
  row-tiled product with the second weight matrix) and the last stretch (gather, scale, scatter-add, bias). The generated
  frame folds the buffer contents through these segments, from the launch memory to `Gen.W8`, and states of the final
  state only that the argument arrays are as launched. Here the same run is stated with one more fact read off the last
  thread state: the result buffer ends at what the fold leaves there, `Gen.W8 m ρ c main_v65`. What that is, as a function
  of the argument arrays, is read back segment by segment in the modules that import this one.
-/
import proofs.«162332_j76278619177596_2_alg».proof.Proof.Gen.KernelIdeal.Frame

set_option maxRecDepth 16384

noncomputable section

namespace Cert.KernelIdeal.KRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- the launch theorem's implicit arguments are found by unifying its conclusion with this statement, which takes
-- unfolding plain definitions in a metavariable's type
set_option backward.isDefEq.respectTransparency.types false in
/-- Every weakly fair execution of @main terminates, nothing faulting, with the result buffer at the contents the fold
    of the segments leaves there and the argument arrays as launched: the launch over the segments, the last thread
    state (every unscoped buffer at the last boundary's contents) read against the final state. -/
theorem run : θ_run defs (onTc (τ := τ) (main (F := F))) ⟨m, fun _ => 0, ρ⟩ (fun r => ∀ c : Dev nD,
      r.2.mem ((c.tc : Thread nD τ).loc main_v65) = W8 m ρ c (Proc.devRef .tc main_v65)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m ρ c b)
    (hfin := fun c s' => by
      iintro ⟨⟨Hh, -⟩, HSI⟩
      unfold StableHlo.held
      imodintro
      iapply (pointsTo_read_all (Pipeline.ucRefs τ sig) (fun b => (((c : Thread nD τ)).1, b)) (W8 m ρ c) s')
      isplitl [Hh] <;> iassumption)
    (hQ := fun s h c =>
      ⟨h c _ (mem_uc main_v65 (by decide)),
       (h c _ (mem_uc main_arg0 (by decide))).trans (W8_main_arg0 m ρ c),
       (h c _ (mem_uc main_arg1 (by decide))).trans (W8_main_arg1 m ρ c),
       (h c _ (mem_uc main_arg2 (by decide))).trans (W8_main_arg2 m ρ c),
       (h c _ (mem_uc main_arg3 (by decide))).trans (W8_main_arg3 m ρ c),
       (h c _ (mem_uc main_arg4 (by decide))).trans (W8_main_arg4 m ρ c),
       (h c _ (mem_uc main_arg5 (by decide))).trans (W8_main_arg5 m ρ c)⟩)

end Cert.KernelIdeal.KRun

end
-- ==== Proof.Result.lean ====
/-
  From the second pallas_call's exit to @main's result, and the idealized kernel's run with its result named.

  The second pallas_call leaves in its result array the product of the clamped first layer with the second weight
  matrix (its blocks of rows tile the array), which is what the reference's second `dot_general` computes: stage 80. The
  last stretch of host operations — gather that product's rows at the edges' sources, scale them by the edge weights, add
  them up at the edges' targets, add the second bias — is the reference's operations 81 to 96. The reference computes the
  edge lists and the edge weights a second time for its second layer (stages 49 to 79), from the same edge list by the
  same operations, so those stages are the first layer's (3, 6 and 30), which the kernel computed once and reuses.
  Hence the result buffer ends at the reference's last stage, 96, of the six argument arrays.
-/
import proofs.«162332_j76278619177596_2_alg».proof.Proof.Between
import proofs.«162332_j76278619177596_2_alg».proof.Proof.SecondProduct
import proofs.«162332_j76278619177596_2_alg».proof.Proof.KernelRun

set_option maxRecDepth 16384

noncomputable section

namespace Cert.KernelIdeal.Result

open Cert.KernelIdeal Cert.KernelIdeal.Gen Idealize.ShloMosaic Idealize.ShloMosaic.TcCoe Idealize.SL.Sem
open Idealize.ShloMosaic.StableHlo

variable (m : (ℓ : Loc nD τ sig) → Buf (Elt Ideal) ℓ) (ρ : Dev nD → PrngReg)

/-- The reference's second `dot_general`, at the ideal values, is the product of its operands. -/
theorem stage80_eq (x0 : (⟨Cert.ReferenceIdeal.S100000x512, .f32⟩ : BufTy).Contents (Elt Ideal))
    (x1 : (⟨Cert.ReferenceIdeal.S2x3200000, .i32⟩ : BufTy).Contents (Elt Ideal))
    (x2 : (⟨Cert.ReferenceIdeal.S512x16, .f32⟩ : BufTy).Contents (Elt Ideal))
    (x3 : (⟨Cert.ReferenceIdeal.S16, .f32⟩ : BufTy).Contents (Elt Ideal))
    (x4 : (⟨Cert.ReferenceIdeal.S16x7, .f32⟩ : BufTy).Contents (Elt Ideal)) :
    Cert.ReferenceIdeal.ReadP.val_main_v80 (F := Ideal) x0 x1 x2 x3 x4
      = Gcn.product (A := 100000) (K := 16) (B := 7) (Cert.ReferenceIdeal.ReadP.val_main_v48 (F := Ideal) x0 x1 x2 x3) x4 := by
  unfold Cert.ReferenceIdeal.ReadP.val_main_v80
  exact Gcn.dotGeneral_eq_product Cert.ReferenceIdeal.dot_S100000x16_S16x7_S100000x7_1_0_0_1_n_n ⟨_, rfl⟩
    (Cert.ReferenceIdeal.ReadP.val_main_v48 (F := Ideal) x0 x1 x2 x3) x4

/-- The second time the reference builds the edges' sources it builds what it built the first time. -/
theorem sources_again (x1 : (⟨Cert.ReferenceIdeal.S2x3200000, .i32⟩ : BufTy).Contents (Elt Ideal)) :
    Cert.ReferenceIdeal.ReadP.val_main_v52 (F := Ideal) x1 = Cert.ReferenceIdeal.ReadP.val_main_v3 (F := Ideal) x1 := rfl
/-- The second time the reference builds the edges' targets it builds what it built the first time. -/
theorem targets_again (x1 : (⟨Cert.ReferenceIdeal.S2x3200000, .i32⟩ : BufTy).Contents (Elt Ideal)) :
    Cert.ReferenceIdeal.ReadP.val_main_v55 (F := Ideal) x1 = Cert.ReferenceIdeal.ReadP.val_main_v6 (F := Ideal) x1 := rfl
/-- The second time the reference computes the edge weights it computes what it computed the first time. -/
theorem weights_again (x1 : (⟨Cert.ReferenceIdeal.S2x3200000, .i32⟩ : BufTy).Contents (Elt Ideal)) :
    Cert.ReferenceIdeal.ReadP.val_main_v79 (F := Ideal) x1 = Cert.ReferenceIdeal.ReadP.val_main_v30 (F := Ideal) x1 := rfl

/-! ## At the second pallas_call's exit -/

/-- The second pallas_call's result array: the clamped first layer times the second weight matrix, the reference's
    stage 80. -/
theorem logits (c : Dev nD) :
    W7 m ρ c (Proc.devRef .tc main_v49)
      = Cert.ReferenceIdeal.ReadP.val_main_v80 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := by
  refine (W7_arr m ρ c 2).trans ((SecondProduct.final (V6 m ρ) c).trans ?_)
  rw [show V6 m ρ c main_v48 = _ from Between.hidden m ρ c,
    show V6 m ρ c main_arg4 = m ((c : Thread nD τ).loc main_arg4) from (Between.arg4' m ρ c).trans (Between.arg4 m ρ c)]
  exact (stage80_eq _ _ _ _ _).symm

theorem weights (c : Dev nD) :
    W7 m ρ c (Proc.devRef .tc main_v30) = Cert.ReferenceIdeal.ReadP.val_main_v30 (F := Ideal) (m ((c : Thread nD τ).loc main_arg1)) :=
  (W7_of_ne m ρ c main_v30 (by decide)).trans ((Between.weights' m ρ c).trans (Between.weights m ρ c))
theorem sources (c : Dev nD) :
    W7 m ρ c (Proc.devRef .tc main_v3) = Cert.ReferenceIdeal.ReadP.val_main_v3 (F := Ideal) (m ((c : Thread nD τ).loc main_arg1)) :=
  (W7_of_ne m ρ c main_v3 (by decide)).trans ((Between.sources' m ρ c).trans (Between.sources m ρ c))
theorem targets (c : Dev nD) :
    W7 m ρ c (Proc.devRef .tc main_v6) = Cert.ReferenceIdeal.ReadP.val_main_v6 (F := Ideal) (m ((c : Thread nD τ).loc main_arg1)) :=
  (W7_of_ne m ρ c main_v6 (by decide)).trans ((Between.targets' m ρ c).trans (Between.targets m ρ c))
theorem arg5 (c : Dev nD) : W7 m ρ c (Proc.devRef .tc main_arg5) = m ((c : Thread nD τ).loc main_arg5) :=
  (W7_of_ne m ρ c main_arg5 (by decide)).trans ((Between.arg5' m ρ c).trans (Between.arg5 m ρ c))

/-! ## The result -/

set_option maxHeartbeats 4000000 in
/-- What the fold of @main's segments leaves in the result buffer: the reference's last stage of the argument arrays. -/
theorem value (c : Dev nD) :
    W8 m ρ c (Proc.devRef .tc main_v65)
      = Cert.ReferenceIdeal.ReadP.val_main_v96 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  show StableHlo.after hostOps2 (W7 m ρ c) (Proc.devRef .tc main_v65) = _
  after_results_simp
  rw [weights m ρ c, sources m ρ c, targets m ρ c, arg5 m ρ c, logits m ρ c,
    ← weights_again, ← sources_again, ← targets_again]
  rfl

/-- The idealized kernel's run: every weakly fair execution of @main terminates, nothing faulting, with the result
    buffer at the reference's last stage of the argument arrays and the argument arrays as launched. -/
theorem run : θ_run defs (onTc (τ := τ) (main (F := Ideal))) ⟨m, fun _ => 0, ρ⟩ (fun r => ∀ c : Dev nD,
      r.2.mem ((c.tc : Thread nD τ).loc main_v65)
        = Cert.ReferenceIdeal.ReadP.val_main_v96 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r h c => ⟨(h c).1.trans (value m ρ c), (h c).2⟩) (KRun.run m ρ)

end Cert.KernelIdeal.Result

end
-- ==== Proof.lean ====
/-
  A two-layer graph convolution: the kernel against its reference, at the ideal values.

  Both programs compute, for node features `x`, an edge list, weights `W1`, `W2` and biases `b1`, `b2`,
      out = Â · relu(Â · (x · W1) + b1) · W2 + b2,
  where `Â` acts on the rows of a matrix by gathering them at the edges' sources, scaling each by the edge's weight
  (the inverse square roots of the in-degrees of its two ends, self-loops included) and adding them up at the edges'
  targets. The reference writes each of the two matrix products as one `dot_general`; the kernel computes each in a
  pallas_call over blocks of rows (20 blocks of 5000 rows, then 10 blocks of 10000 rows), each block a `tpu.matmul` into a
  zero accumulator, and does everything else with the same host operations as the reference, computing the edge lists
  and weights once where the reference computes them once per layer.

  The one law that joins the two sides is that a product of matrices taken a block of rows at a time is the product
  (Proof/Product.lean): entry by entry both are the same sum over the contracted coordinate, on the extended reals, so
  no entry needs to be finite and the precondition is not opened. Proof/FirstProduct.lean and Proof/SecondProduct.lean
  read each pallas_call's result array as that product; Proof/Entry.lean, Proof/Between.lean and Proof/Result.lean read
  the host operations around them back, a stretch at a time, against the reference's stages (the gathers and
  scatter-adds are never opened: they are the same operations on the same values on both sides); Proof/KernelRun.lean is
  the kernel's run with its result buffer named. The ideal pass rewrote nothing, so the kernel's idealization is its own
  text read at the ideal values.
-/
import proofs.«162332_j76278619177596_2_alg».proof.Defs
import proofs.«162332_j76278619177596_2_alg».proof.Proof.Gen.Kernel
import proofs.«162332_j76278619177596_2_alg».proof.Proof.Gen.Kernel.Skeleton
import proofs.«162332_j76278619177596_2_alg».proof.Proof.Gen.Kernel.Launch
import proofs.«162332_j76278619177596_2_alg».proof.Proof.Gen.Kernel.Points
import proofs.«162332_j76278619177596_2_alg».proof.Proof.Gen.Kernel.Frame
import proofs.«162332_j76278619177596_2_alg».proof.Proof.Gen.KernelIdeal
import proofs.«162332_j76278619177596_2_alg».proof.Proof.Gen.KernelIdeal.Skeleton
import proofs.«162332_j76278619177596_2_alg».proof.Proof.Gen.KernelIdeal.Launch
import proofs.«162332_j76278619177596_2_alg».proof.Proof.Gen.KernelIdeal.Points
import proofs.«162332_j76278619177596_2_alg».proof.Proof.Gen.KernelIdeal.Frame
import proofs.«162332_j76278619177596_2_alg».proof.Proof.Gen.ReferenceIdeal
import proofs.«162332_j76278619177596_2_alg».proof.Proof.RunP
import proofs.«162332_j76278619177596_2_alg».proof.Proof.ReadP
import proofs.«162332_j76278619177596_2_alg».proof.Proof.Gen.Pre_finite_inputs
import proofs.«162332_j76278619177596_2_alg».proof.Proof.Result
import Idealize.ShloMosaic.Adequacy
import Idealize.ShloMosaic.Init

noncomputable section

namespace Cert.Proof

open Idealize.ShloMosaic Idealize.ShloMosaic.TcCoe Idealize.SL.Sem

/-- The kernel as printed runs and leaves its arguments as launched. -/
theorem frame_kernel : Cert.frame_Kernel := fun m ρ _ => Cert.Kernel.Gen.frame m ρ

/-- The idealized kernel runs and leaves its arguments as launched. -/
theorem frame_kernel_ideal : Cert.frame_KernelIdeal := fun m ρ _ => Cert.KernelIdeal.Gen.frame m ρ

/-- The idealized reference runs and leaves its arguments as launched: its run, the result dropped. -/
theorem frame_reference_ideal : Cert.frame_ReferenceIdeal := fun m ρ _ =>
  (θ_run Cert.ReferenceIdeal.defs _ _).mono (fun _ h c => (h c).2) (Cert.ReferenceIdeal.ValueP.run (F := Ideal) m ρ)

/-- The ideal pass rewrote no operation of the kernel. -/
theorem preserves : Cert.preserves_Kernel_KernelIdeal := trivial

/-- From memories that agree on the six arguments both idealized programs run, and both end with the result buffer at
    the reference's last stage of those arguments: the kernel's by the read-back of its segments, the reference's by its
    own run. -/
theorem algebraic : Cert.algebraic_KernelIdeal_ReferenceIdeal := by
  intro m ρ m' ρ' _ hagree
  refine ⟨_, Cert.KernelIdeal.Result.run m ρ, ?_⟩
  refine (θ_run Cert.ReferenceIdeal.defs _ _).mono (fun _ h c => ⟨(h c).1.trans ?_, (h c).2⟩)
    (Cert.ReferenceIdeal.ValueP.run (F := Ideal) m' ρ')
  rw [Cert.ReferenceIdeal.ReadP.val_main_v96_eq, (hagree c).1, (hagree c).2.1, (hagree c).2.2.1, (hagree c).2.2.2.1,
    (hagree c).2.2.2.2.1, (hagree c).2.2.2.2.2]

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference_ideal, preserves, algebraic⟩

end Cert.Proof

end
